-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x256 .f32) (main_arg1 : FVec F S8192x256 .f32) (main_arg2 : FVec F S8192x8192 .f32) (main_arg3 : IVec S8192x8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512x256 : Shape := ⟨2, ![512, 256]⟩
abbrev S512x2048 : Shape := ⟨2, ![512, 2048]⟩
abbrev S512x1 : Shape := ⟨2, ![512, 1]⟩
abbrev S2048x256 : Shape := ⟨2, ![2048, 256]⟩
abbrev S512 : Shape := ⟨1, ![512]⟩

abbrev nBuf : Space → Nat
  | .hbm => 29
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S8192x8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x256, .bf16⟩
  | .hbm, ⟨25, _⟩ => ⟨S8192x256, .bf16⟩
  | .hbm, ⟨26, _⟩ => ⟨S8192x1, .f32⟩
  | .hbm, ⟨27, _⟩ => ⟨S_, .f32⟩
  | .hbm, ⟨28, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S512x2048, .f32⟩
  | .local _ .vmem, ⟨4, _⟩ => ⟨S512x2048, .f32⟩
  | .local _ .vmem, ⟨5, _⟩ => ⟨S512x2048, .i32⟩
  | .local _ .vmem, ⟨6, _⟩ => ⟨S512x2048, .i32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S2048x256 : 0 < S2048x256.numel
  shapeCasts_S2048x256_S2048x256 : S2048x256.ShapeCasts S2048x256
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reducesTo_S8192x1_S_d0_1 : S8192x1.ReducesTo [0, 1] S_
  dot_S512x256_S2048x256_S512x2048_1_1_0_0_n_n_wf : DotDims.WF S512x256 S2048x256 S512x2048 [1] [1] [0] [0] [] []
  hrank0 : 0 < grid0.rank
  k0_mult1_dvd : ∀ i : grid0.Coords, 128 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x8192.size a
  hwx0_3 : ∀ i : grid0.Coords, EltTy.bits .i32 = 32 ∨ (Rect.block (s := S8192x8192) S512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v10) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .hbm, ⟨3, _⟩ => ⟨S8192x8192, .i32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_call2_cst : Ref sig .tc := ⟨.hbm, 28, rfl⟩
abbrev main_call2_v0 : Ref sig .tc := ⟨.hbm, 29, rfl⟩
abbrev main_call2_cst_0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_cst_1 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_5 : Ref sig .tc := ⟨.hbm, 55, rfl⟩
abbrev main_v23 : Ref sig .tc := ⟨.hbm, 56, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KernelPieces.lean ====
/-
  What one grid point of the loss kernel leaves in its four carried column buffers and in its output block,
  as pure functions of the blocks it loads.

  A grid point (i, j) handles the 512 rows of row tile i against the 2048 columns of column tile j. It adds to
  each of four [512, 1] running sums the tile's contribution: Σ m·w·s, Σ m·w, Σ exp s and Σ m over the tile's
  columns, where s is the scaled similarity of the row with each of the tile's columns (rows j·2048 … of the
  resident second matrix). At j = 0 the running sums start from the zero block; at j = 3 the output block is
  computed from the updated sums.
-/
import proofs.«123307_j53386443489488_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen Idealize.ShloMosaic.Tactic

variable {F : FTy → Type} [FloatOps F] [Named F]

theorem hz : (![0, 0] : Fin 2 → Nat) = fun _ => 0 := funext fun a => by fin_cases a <;> rfl

/-- The 2048 rows of the resident second matrix that column tile `i 1` uses. -/
def slice (i : grid0.Coords) (x1 : Vec F S8192x256 .bf16) : Vec F S2048x256 .bf16 :=
  View.ld x1 (Rect.unit (s := S8192x256) (k0_off1 i) S2048x256.size (k0_off1_inb i))

/-- Σ m·w·s over the tile's columns, added to `s0`. -/
def tileA (i : grid0.Coords) (x0 : Vec F S512x256 .bf16) (x1 : Vec F S8192x256 .bf16) (x2 : Vec F S512x2048 .f32) (x3 : Vec F S512x2048 .i32) (s0 : Vec F S512x1 .f32) : Vec F S512x1 .f32 :=
  k0_pay12 x0 (slice i x1) x3 x2 s0
/-- Σ m·w over the tile's columns, added to `s1`. -/
def tileS (x2 : Vec F S512x2048 .f32) (x3 : Vec F S512x2048 .i32) (s1 : Vec F S512x1 .f32) : Vec F S512x1 .f32 :=
  k0_pay13 x3 x2 s1
/-- Σ exp s over the tile's columns, added to `s2`. -/
def tileE (i : grid0.Coords) (x0 : Vec F S512x256 .bf16) (x1 : Vec F S8192x256 .bf16) (s2 : Vec F S512x1 .f32) : Vec F S512x1 .f32 :=
  k0_pay1 (k0_pay9 x0 (slice i x1)) s2
/-- Σ m over the tile's columns, added to `s3`. -/
def tileC (x3 : Vec F S512x2048 .i32) (s3 : Vec F S512x1 .f32) : Vec F S512x1 .f32 :=
  k0_pay2 (k0_pay10 x3) s3

/-- Case A, carried buffer 0 (the masked weighted similarity sum): the step's one covering store, over the zero block the reset stored first. -/
theorem sout_A_0 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .bf16) (x1 : Vec F S8192x256 .bf16) (x2 : Vec F S512x2048 .f32) (x3 : Vec F S512x2048 .i32) :
    sout0_A_0 c i arg2 harg2 arg3 harg3 arg4 harg4 arg5 harg5 arg6 harg6 arg7 harg7 arg8 harg8 arg9 harg9 arg10 harg10 hc0 hc1 x0 x1 x2 x3 = tileA i x0 x1 x2 x3 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case A, carried buffer 1 (the masked weight sum): the step's one covering store, over the zero block the reset stored first. -/
theorem sout_A_1 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .bf16) (x1 : Vec F S8192x256 .bf16) (x2 : Vec F S512x2048 .f32) (x3 : Vec F S512x2048 .i32) :
    sout0_A_1 c i arg2 harg2 arg3 harg3 arg4 harg4 arg5 harg5 arg6 harg6 arg7 harg7 arg8 harg8 arg9 harg9 arg10 harg10 hc0 hc1 x0 x1 x2 x3 = tileS x2 x3 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case A, carried buffer 2 (the sum of exponentials): the step's one covering store, over the zero block the reset stored first. -/
theorem sout_A_2 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .bf16) (x1 : Vec F S8192x256 .bf16) (x2 : Vec F S512x2048 .f32) (x3 : Vec F S512x2048 .i32) :
    sout0_A_2 c i arg2 harg2 arg3 harg3 arg4 harg4 arg5 harg5 arg6 harg6 arg7 harg7 arg8 harg8 arg9 harg9 arg10 harg10 hc0 hc1 x0 x1 x2 x3 = tileE i x0 x1 k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case A, carried buffer 3 (the mask count): the step's one covering store, over the zero block the reset stored first. -/
theorem sout_A_3 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i) (x0 : Vec F S512x256 .bf16) (x1 : Vec F S8192x256 .bf16) (x2 : Vec F S512x2048 .f32) (x3 : Vec F S512x2048 .i32) :
    sout0_A_3 c i arg2 harg2 arg3 harg3 arg4 harg4 arg5 harg5 arg6 harg6 arg7 harg7 arg8 harg8 arg9 harg9 arg10 harg10 hc0 hc1 x0 x1 x2 x3 = tileC x3 k0_pay7 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_run_names
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case B, carried buffer 0 (the masked weighted similarity sum): the step's one covering store over what the point before left. -/
theorem sout_B_0 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 hc0 hc1 x0 x1 x2 x3 xs0 xs1 xs2 xs3 = tileA i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case B, carried buffer 1 (the masked weight sum): the step's one covering store over what the point before left. -/
theorem sout_B_1 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 hc0 hc1 x0 x1 x2 x3 xs0 xs1 xs2 xs3 = tileS x2 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case B, carried buffer 2 (the sum of exponentials): the step's one covering store over what the point before left. -/
theorem sout_B_2 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 hc0 hc1 x0 x1 x2 x3 xs0 xs1 xs2 xs3 = tileE i x0 x1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case B, carried buffer 3 (the mask count): the step's one covering store over what the point before left. -/
theorem sout_B_3 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 hc0 hc1 x0 x1 x2 x3 xs0 xs1 xs2 xs3 = tileC x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_B
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case C, carried buffer 0 (the masked weighted similarity sum): the step's one covering store over what the point before left. -/
theorem sout_C_0 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 hc0 hc1 x0 x1 x2 x3 xs0 xs1 xs2 xs3 = tileA i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case C, carried buffer 1 (the masked weight sum): the step's one covering store over what the point before left. -/
theorem sout_C_1 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 hc0 hc1 x0 x1 x2 x3 xs0 xs1 xs2 xs3 = tileS x2 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case C, carried buffer 2 (the sum of exponentials): the step's one covering store over what the point before left. -/
theorem sout_C_2 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 hc0 hc1 x0 x1 x2 x3 xs0 xs1 xs2 xs3 = tileE i x0 x1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case C, carried buffer 3 (the mask count): the step's one covering store over what the point before left. -/
theorem sout_C_3 (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 hc0 hc1 x0 x1 x2 x3 xs0 xs1 xs2 xs3 = tileC x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz]
  rfl

/-- Case C, the output block: the row losses computed from the four carried buffers AFTER this point's step. -/
theorem out_C (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x2048 .f32) (harg4 : arg4.IsWhole) (arg5 : Memref sig .tc .vmem S512x2048 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i) (x0 : Vec F S512x256 .bf16) (x1 : Vec F S8192x256 .bf16) (x2 : Vec F S512x2048 .f32) (x3 : Vec F S512x2048 .i32) (xs0 : Vec F S512x1 .f32) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 hc0 hc1 x0 x1 x2 x3 xs0 xs1 xs2 xs3
      = k0_pay3 (tileE i x0 x1 xs2) (tileC x3 xs3) (tileA i x0 x1 x2 x3 xs0) (tileS x2 x3 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2 xs3)]
  unfold kernelRun0_C
  dsimp only
  sl_unfold_run_names
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x1) hz, View.ld_unit_zero (S := S512x256) hz, View.ld_unit_zero (S := S512x2048) hz, View.readCov_unit_zero (S := S512x1) _ hz]
  rfl

end Cert.KernelIdeal.Step

end
-- ==== Proof.KernelCarry.lean ====
/-
  The four running sums across the column tiles of one row tile.

  The grid runs the four column tiles of a row tile one after the other (points 4·i, 4·i + 1, 4·i + 2, 4·i + 3).
  Each point adds its tile's contributions to the four carried [512, 1] buffers; the first of the four starts
  them from the zero blocks; the last also computes the output block from the updated buffers. So after the
  last point of a row tile the carried buffers are four steps applied to zero, and the output block is the
  row-loss formula of them.
-/
import proofs.«123307_j53386443489488_2_alg».proof.Proof.KernelPieces

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen

variable {F : FTy → Type} [FloatOps F] [Named F]
variable (m : (ℓ : Loc nD τ sig) → Buf (Elt F) ℓ)

/-- The four carried buffers: Σ m·w·s, Σ m·w, Σ exp s, Σ m. -/
abbrev Four (F : FTy → Type) : Type := Vec F S512x1 .f32 × Vec F S512x1 .f32 × Vec F S512x1 .f32 × Vec F S512x1 .f32

/-- The zero blocks the first column tile's reset stores. -/
def zero4 : Four F := (k0_pay4, k0_pay5, k0_pay6, k0_pay7)

/-- One grid point's step on the carried buffers: each gets its tile contribution added. -/
def step (c : Dev nD) (t : Fin cfg0.N) (s : Four F) : Four F :=
  (Step.tileA (grid0.coords t) (iblk m c 0 t) (iblk m c 1 t) (iblk m c 2 t) (iblk m c 3 t) s.1,
   Step.tileS (iblk m c 2 t) (iblk m c 3 t) s.2.1,
   Step.tileE (grid0.coords t) (iblk m c 0 t) (iblk m c 1 t) s.2.2.1,
   Step.tileC (iblk m c 3 t) s.2.2.2)

/-- The output block from the carried buffers: the rows' losses. -/
def lossOf (s : Four F) : Vec F S512x1 .f32 := k0_pay3 s.2.2.1 s.2.2.2 s.1 s.2.1

/-- At the first column tile of a row tile the carried buffers are one step from zero. -/
theorem carried_A (c : Dev nD) (t : Fin cfg0.N) (h0 : t.val % 4 = 0) (h1 : ¬t.val % 4 = 3) :
    (outsAt0 m c t.val t.isLt).2 = step m c t zero4 := by
  rw [outsAt0_A m c t h0 h1]
  exact congrArg₂ Prod.mk (Step.sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) (congrArg₂ Prod.mk (Step.sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) (congrArg₂ Prod.mk (Step.sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)) (Step.sout_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t))))

/-- At a middle column tile they are one step from what the point before left. -/
theorem carried_B (c : Dev nD) (t : Fin cfg0.N) (h0 : ¬t.val % 4 = 0) (h1 : ¬t.val % 4 = 3) :
    (outsAt0 m c t.val t.isLt).2 = step m c t (outsAt0 m c (t.val - 1) (Nat.lt_of_le_of_lt (Nat.sub_le _ _) t.isLt)).2 := by
  rw [outsAt0_B m c t h0 h1]
  exact congrArg₂ Prod.mk (Step.sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (congrArg₂ Prod.mk (Step.sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (congrArg₂ Prod.mk (Step.sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (Step.sout_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)))

/-- At the last column tile likewise, -/
theorem carried_C (c : Dev nD) (t : Fin cfg0.N) (h0 : ¬t.val % 4 = 0) (h1 : t.val % 4 = 3) :
    (outsAt0 m c t.val t.isLt).2 = step m c t (outsAt0 m c (t.val - 1) (Nat.lt_of_le_of_lt (Nat.sub_le _ _) t.isLt)).2 := by
  rw [outsAt0_C m c t h0 h1]
  exact congrArg₂ Prod.mk (Step.sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (congrArg₂ Prod.mk (Step.sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (congrArg₂ Prod.mk (Step.sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (Step.sout_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)))

/-- and the output block is the rows' losses of the updated buffers. -/
theorem out_C (c : Dev nD) (t : Fin cfg0.N) (h0 : ¬t.val % 4 = 0) (h1 : t.val % 4 = 3) :
    (outsAt0 m c t.val t.isLt).1 = lossOf (step m c t (outsAt0 m c (t.val - 1) (Nat.lt_of_le_of_lt (Nat.sub_le _ _) t.isLt)).2) := by
  rw [outsAt0_C m c t h0 h1]
  exact Step.out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After the last column tile of a row tile: four steps from zero, and the losses of that. -/
theorem out_last (c : Dev nD) (t : Fin cfg0.N) (h3 : t.val % 4 = 3) :
    ∃ (t0 t1 t2 : Fin cfg0.N), t0.val = t.val - 3 ∧ t1.val = t.val - 2 ∧ t2.val = t.val - 1 ∧
      (outsAt0 m c t.val t.isLt).1 = lossOf (step m c t (step m c t2 (step m c t1 (step m c t0 zero4)))) := by
  have hN : cfg0.N = 64 := N_0
  have ht := t.isLt
  refine ⟨⟨t.val - 3, by omega⟩, ⟨t.val - 2, by omega⟩, ⟨t.val - 1, by omega⟩, rfl, rfl, rfl, ?_⟩
  rw [out_C m c t (by omega) h3]
  refine congrArg (fun s => lossOf (step m c t s)) ?_
  refine (carried_B m c ⟨t.val - 1, by omega⟩ (by show ¬(t.val - 1) % 4 = 0; omega) (by show ¬(t.val - 1) % 4 = 3; omega)).trans ?_
  refine congrArg (step m c ⟨t.val - 1, by omega⟩) ?_
  refine (carried_B m c ⟨t.val - 2, by omega⟩ (by show ¬(t.val - 2) % 4 = 0; omega) (by show ¬(t.val - 2) % 4 = 3; omega)).trans ?_
  refine congrArg (step m c ⟨t.val - 2, by omega⟩) ?_
  exact carried_A m c ⟨t.val - 3, by omega⟩ (by show (t.val - 3) % 4 = 0; omega) (by show ¬(t.val - 3) % 4 = 3; omega)

end Cert.KernelIdeal.Carry

end
-- ==== Proof.KernelTileBase.lean ====
/-
  The building blocks for reading the loss kernel's tile arithmetic at one element, at the ideal values: the
  scaled similarity of a row with a column of the tile, the named inverse temperature, a sum along the lanes
  read at a row, the keep-dimensions cast read at a row, and the scaled product of the two loaded matrices read
  at an element.
-/
import proofs.«123307_j53386443489488_2_alg».proof.Proof.KernelPieces
import Idealize.ShloMosaic.Lib.ValueIdx
import Idealize.ShloMosaic.Lib.Pipeline.Value
import Idealize.ShloMosaic.PureOps.Ideal.Laws
import Idealize.ShloMosaic.PureOps.IdealRules

noncomputable section

open Idealize.ShloMosaic Idealize.ShloMosaic.TcCoe Idealize.SL.Sem Idealize.ShloMosaic.ValueIdx

namespace Cert.KernelIdeal.Tile

open Cert.KernelIdeal Cert.KernelIdeal.Gen

/-- The scaled similarity of row `p` of the row tile with row `k` of the column tile's slice: the dot product
    over the 256 features times the inverse temperature. -/
def sim (x0 : Vec Ideal S512x256 .bf16) (xs : Vec Ideal S2048x256 .bf16) (p : Fin 512) (k : Fin 2048) : EReal :=
  (∑ d : Fin 256, x0 (ix2 p d) * xs (ix2 k d)) * ((268435456 / 13421773 : ℝ) : EReal)

/-- The named inverse temperature denotes the rational 268435456 / 13421773. -/
theorem inv_temperature :
    Named.named (F := Ideal) κ "inv_temperature" (φ := .f32) 0x41A00000#32 = ((268435456 / 13421773 : ℝ) : EReal) :=
  IdealRules.named_const.ideal_named_scalar _ _ _ _ rfl

/-- A sum along the lanes, read at row `p`: the sum over the 2048 columns of the row's entries. -/
theorem rowSum_apply (v : FVec Ideal S512x2048 .f32) (p : Fin 512) :
    multiReduction (F := Ideal) .add [1] S512 v 0x00000000#32 reduces_S512x2048_S512 (.inl rfl) rfl (ix1 p)
      = ∑ k : Fin 2048, v (ix2 p k) := by
  refine (Ideal.multiReduction_add_single v 0x00000000#32 reduces_S512x2048_S512 (.inl rfl) rfl (ix1 p)).trans ?_
  show ∑ k : Fin 2048, v (reduces_S512x2048_S512.lift (ix1 p) k) = _
  refine Finset.sum_congr rfl fun k _ => congrArg v ?_
  funext c
  apply Fin.ext
  fin_cases c <;> rfl

/-- The keep-dimensions cast of a column of 512 entries, read at row `p`. -/
theorem keepdims_apply (v : FVec Ideal S512 .f32) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]
    show p.val = p.val * 1 + 0
    omega)

theorem lhs_0 (j : S512x2048.Idx) (q : dot_S512x256_S2048x256_S512x2048_1_1_0_0_n_n.contr.Idx) :
    (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl

theorem lhs_1 (j : S512x2048.Idx) (q : dot_S512x256_S2048x256_S512x2048_1_1_0_0_n_n.contr.Idx) :
    (dot_S512x256_S2048x256_S512x2048_1_1_0_0_n_n.lhsIdx j q 1).val = (q ⟨0, by decide⟩).val :=
  dot_S512x256_S2048x256_S512x2048_1_1_0_0_n_n.lhsIdx_val_of_single rfl j q

theorem rhs_0 (j : S512x2048.Idx) (q : dot_S512x256_S2048x256_S512x2048_1_1_0_0_n_n.contr.Idx) :
    (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl

theorem rhs_1 (j : S512x2048.Idx) (q : dot_S512x256_S2048x256_S512x2048_1_1_0_0_n_n.contr.Idx) :
    (dot_S512x256_S2048x256_S512x2048_1_1_0_0_n_n.rhsIdx j q 1).val = (q ⟨0, by decide⟩).val :=
  dot_S512x256_S2048x256_S512x2048_1_1_0_0_n_n.rhsIdx_val_of_single rfl j q

/-- The scaled product of the row tile with the column tile's slice, read at (p, k): the scaled similarity. -/
theorem pay9_apply (x0 : Vec Ideal S512x256 .bf16) (xs : Vec Ideal S2048x256 .bf16) (p : Fin 512) (k : Fin 2048) :
    k0_pay9 (F := Ideal) x0 xs (ix2 p k) = sim x0 xs p k := by
  show mulf (matmul (F := Ideal) (φ₁ := .bf16) (φ₂ := .bf16) dot_S512x256_S2048x256_S512x2048_1_1_0_0_n_n none
        (shapeCast S512x256 x0 shapeCasts_S512x256_S512x256) (shapeCast S2048x256 xs shapeCasts_S2048x256_S2048x256)
        (constant S512x2048 .f32 0x00000000#32))
      (broadcast S512x2048 (Named.named (F := Ideal) κ "inv_temperature" (φ := .f32) 0x41A00000#32)) (ix2 p k) = _
  rw [shapeCast_self, shapeCast_self, mulf_apply, broadcast_apply, inv_temperature]
  unfold sim
  refine congrArg (· * ((268435456 / 13421773 : ℝ) : EReal)) ?_
  show FloatOps.matmul (F := Ideal) (φ₁ := .bf16) (φ₂ := .bf16) dot_S512x256_S2048x256_S512x2048_1_1_0_0_n_n none x0 xs
    (constant S512x2048 .f32 0x00000000#32) (ix2 p k) = _
  rw [Ideal.matmul_constant_zero_apply,
    ← Equiv.sum_comp (contrEquiv1 dot_S512x256_S2048x256_S512x2048_1_1_0_0_n_n 256 rfl rfl).symm]
  refine Finset.sum_congr rfl fun d _ => ?_
  have hd := contrEquiv1_symm_val dot_S512x256_S2048x256_S512x2048_1_1_0_0_n_n 256 rfl rfl d
  have el : dot_S512x256_S2048x256_S512x2048_1_1_0_0_n_n.lhsIdx (ix2 p k)
      ((contrEquiv1 dot_S512x256_S2048x256_S512x2048_1_1_0_0_n_n 256 rfl rfl).symm d) = ix2 p d :=
    funext fun a => Fin.ext (by
      match a with
      | ⟨0, _⟩ => exact lhs_0 _ _
      | ⟨1, _⟩ => exact (lhs_1 _ _).trans hd)
  have er : dot_S512x256_S2048x256_S512x2048_1_1_0_0_n_n.rhsIdx (ix2 p k)
      ((contrEquiv1 dot_S512x256_S2048x256_S512x2048_1_1_0_0_n_n 256 rfl rfl).symm d) = ix2 k d :=
    funext fun a => Fin.ext (by
      match a with
      | ⟨0, _⟩ => exact rhs_0 _ _
      | ⟨1, _⟩ => exact (rhs_1 _ _).trans hd)
  rw [el, er]

end Cert.KernelIdeal.Tile

end
-- ==== Proof.KernelTile.lean ====
/-
  The loss kernel's tile arithmetic read at one row, at the ideal values.  Each of the four running sums leaves,
  at row p, what it held plus the sum over the tile's 2048 columns of its summand: mask · weight · similarity,
  mask · weight, exp(similarity), and the mask; the output block holds, at row p, the row's loss computed from
  the four sums; and the four reset blocks hold zero.
-/
import proofs.«123307_j53386443489488_2_alg».proof.Proof.KernelTileBase

noncomputable section

open Idealize.ShloMosaic Idealize.ShloMosaic.TcCoe Idealize.SL.Sem Idealize.ShloMosaic.ValueIdx

namespace Cert.KernelIdeal.Tile

open Cert.KernelIdeal Cert.KernelIdeal.Gen

/-- The mask converted to a float, read at an element: the 32-bit integer read signed. -/
theorem pay10_apply (x3 : Vec Ideal S512x2048 .i32) (j : S512x2048.Idx) :
    k0_pay10 (F := Ideal) x3 j = (((x3 j).toInt : ℝ) : EReal) := rfl

/-- Mask times weight, read at an element. -/
theorem pay11_apply (x3 : Vec Ideal S512x2048 .i32) (x2 : Vec Ideal S512x2048 .f32) (j : S512x2048.Idx) :
    k0_pay11 (F := Ideal) x3 x2 j = (((x3 j).toInt : ℝ) : EReal) * x2 j := rfl

/-- The masked weighted similarity sum after the tile, at row `p`. -/
theorem pay12_apply (x0 : Vec Ideal S512x256 .bf16) (xs : Vec Ideal S2048x256 .bf16) (x3 : Vec Ideal S512x2048 .i32)
    (x2 : Vec Ideal S512x2048 .f32) (s : Vec Ideal S512x1 .f32) (p : Fin 512) :
    k0_pay12 (F := Ideal) x0 xs x3 x2 s (ix2 p (0 : Fin 1))
      = s (ix2 p (0 : Fin 1))
        + ∑ k : Fin 2048, ((((x3 (ix2 p k)).toInt : ℝ) : EReal) * x2 (ix2 p k)) * sim x0 xs p k := by
  show shapeCast S512x1 (addf (F := Ideal) (φ := .f32) s (shapeCast S512x1
      (multiReduction (F := Ideal) .add [1] S512 (mulf (k0_pay11 (F := Ideal) x3 x2) (k0_pay9 (F := Ideal) x0 xs))
        0x00000000#32 reduces_S512x2048_S512 (.inl rfl) rfl) shapeCasts_S512_S512x1))
    shapeCasts_S512x1_S512x1 (ix2 p (0 : Fin 1)) = _
  rw [shapeCast_self, addf_apply, keepdims_apply, rowSum_apply]
  refine congrArg (s (ix2 p (0 : Fin 1)) + ·) (Finset.sum_congr rfl fun k _ => ?_)
  rw [mulf_apply, pay9_apply, pay11_apply]

/-- The masked weight sum after the tile, at row `p`. -/
theorem pay13_apply (x3 : Vec Ideal S512x2048 .i32) (x2 : Vec Ideal S512x2048 .f32) (s : Vec Ideal S512x1 .f32)
    (p : Fin 512) :
    k0_pay13 (F := Ideal) x3 x2 s (ix2 p (0 : Fin 1))
      = s (ix2 p (0 : Fin 1)) + ∑ k : Fin 2048, (((x3 (ix2 p k)).toInt : ℝ) : EReal) * x2 (ix2 p k) := by
  show shapeCast S512x1 (addf (F := Ideal) (φ := .f32) s (shapeCast S512x1
      (multiReduction (F := Ideal) .add [1] S512 (k0_pay11 (F := Ideal) x3 x2)
        0x00000000#32 reduces_S512x2048_S512 (.inl rfl) rfl) shapeCasts_S512_S512x1))
    shapeCasts_S512x1_S512x1 (ix2 p (0 : Fin 1)) = _
  rw [shapeCast_self, addf_apply, keepdims_apply, rowSum_apply]
  refine congrArg (s (ix2 p (0 : Fin 1)) + ·) (Finset.sum_congr rfl fun k _ => ?_)
  rw [pay11_apply]

/-- The sum of exponentials after the tile, at row `p`. -/
theorem pay1_apply (x0 : Vec Ideal S512x256 .bf16) (xs : Vec Ideal S2048x256 .bf16) (s : Vec Ideal S512x1 .f32)
    (p : Fin 512) :
    k0_pay1 (F := Ideal) (k0_pay9 (F := Ideal) x0 xs) s (ix2 p (0 : Fin 1))
      = s (ix2 p (0 : Fin 1)) + ∑ k : Fin 2048, Ideal.exp (sim x0 xs p k) := by
  show shapeCast S512x1 (addf (F := Ideal) (φ := .f32) s (shapeCast S512x1
      (multiReduction (F := Ideal) .add [1] S512 (Idealize.ShloMosaic.exp (k0_pay9 (F := Ideal) x0 xs))
        0x00000000#32 reduces_S512x2048_S512 (.inl rfl) rfl) shapeCasts_S512_S512x1))
    shapeCasts_S512x1_S512x1 (ix2 p (0 : Fin 1)) = _
  rw [shapeCast_self, addf_apply, keepdims_apply, rowSum_apply]
  refine congrArg (s (ix2 p (0 : Fin 1)) + ·) (Finset.sum_congr rfl fun k _ => ?_)
  show Ideal.exp (k0_pay9 (F := Ideal) x0 xs (ix2 p k)) = _
  rw [pay9_apply]

/-- The mask count after the tile, at row `p`. -/
theorem pay2_apply (x3 : Vec Ideal S512x2048 .i32) (s : Vec Ideal S512x1 .f32) (p : Fin 512) :
    k0_pay2 (F := Ideal) (k0_pay10 (F := Ideal) x3) s (ix2 p (0 : Fin 1))
      = s (ix2 p (0 : Fin 1)) + ∑ k : Fin 2048, (((x3 (ix2 p k)).toInt : ℝ) : EReal) := by
  show shapeCast S512x1 (addf (F := Ideal) (φ := .f32) s (shapeCast S512x1
      (multiReduction (F := Ideal) .add [1] S512 (k0_pay10 (F := Ideal) x3)
        0x00000000#32 reduces_S512x2048_S512 (.inl rfl) rfl) shapeCasts_S512_S512x1))
    shapeCasts_S512x1_S512x1 (ix2 p (0 : Fin 1)) = _
  rw [shapeCast_self, addf_apply, keepdims_apply, rowSum_apply]
  refine congrArg (s (ix2 p (0 : Fin 1)) + ·) (Finset.sum_congr rfl fun k _ => ?_)
  rw [pay10_apply]

/-- The row's loss from the four sums, at row `p`: (0 − (A − log E · S)) / max(C, 1). -/
theorem pay3_apply (e cn a sw : Vec Ideal S512x1 .f32) (p : Fin 512) :
    k0_pay3 (F := Ideal) e cn a sw (ix2 p (0 : Fin 1))
      = Ideal.div
          (Ideal.ofBits .f32 0x00000000#32
            - (a (ix2 p (0 : Fin 1)) - Ideal.log (e (ix2 p (0 : Fin 1))) * sw (ix2 p (0 : Fin 1))))
          (max (cn (ix2 p (0 : Fin 1))) (Ideal.ofBits .f32 0x3F800000#32)) := rfl

/-- The reset block of the masked weighted similarity sum is zero at every row. -/
theorem pay4_apply (p : Fin 512) :
    k0_pay4 (F := Ideal) (ix2 p (0 : Fin 1)) = Ideal.ofBits .f32 0x00000000#32 := rfl
/-- The reset block of the masked weight sum is zero at every row. -/
theorem pay5_apply (p : Fin 512) :
    k0_pay5 (F := Ideal) (ix2 p (0 : Fin 1)) = Ideal.ofBits .f32 0x00000000#32 := rfl
/-- The reset block of the sum of exponentials is zero at every row. -/
theorem pay6_apply (p : Fin 512) :
    k0_pay6 (F := Ideal) (ix2 p (0 : Fin 1)) = Ideal.ofBits .f32 0x00000000#32 := rfl
/-- The reset block of the mask count is zero at every row. -/
theorem pay7_apply (p : Fin 512) :
    k0_pay7 (F := Ideal) (ix2 p (0 : Fin 1)) = Ideal.ofBits .f32 0x00000000#32 := rfl

end Cert.KernelIdeal.Tile

end
-- ==== Proof.LossSpec.lean ====
/-
  The two closed forms of the weighted contrastive loss, as functions of the argument arrays, over the extended reals.

  Both programs normalise every row of the two embedding matrices to unit Euclidean length (dividing by
  max(‖row‖, eps)), take the cosine similarity of row r of the first with row c of the second, scale it by the
  inverse temperature, and average over the masked columns of each row the weighted log-softmax of the scaled
  similarities; the loss is the sum over the rows.

  * `kernelLoss`: per row, the four running sums A = Σ m·w·s, S = Σ m·w, E = Σ exp s, C = Σ m, each accumulated
    over four column tiles of 2048 columns in tile order from zero, and the row's loss (0 − (A − log E · S)) / max(C, 1);
    s is the cosine times the NAMED inverse temperature.
  * `refLoss`: per row, log-softmax with the row maximum subtracted first, −(Σ m·w·logp) / max(Σ m, 1); s is the
    cosine divided by the temperature.
-/
import Idealize.ShloMosaic.PureOps.Ideal
import Idealize.ShloMosaic.PureOps.Ideal.Laws

noncomputable section

namespace Cert.Loss

open Idealize.ShloMosaic

/-- The Euclidean norm of row `r`: √(0 + Σ_d x r d · x r d). -/
def rowNorm (x : Fin 8192 → Fin 256 → EReal) (r : Fin 8192) : EReal :=
  Ideal.sqrt (Ideal.ofBits .f32 0x00000000#32 + ∑ d : Fin 256, x r d * x r d)

/-- Entry (r, d) of the row-normalised matrix: x r d / max(‖row r‖, eps). -/
def unitRow (x : Fin 8192 → Fin 256 → EReal) (r : Fin 8192) (d : Fin 256) : EReal :=
  Ideal.div (x r d) (max (rowNorm x r) (Ideal.ofBits .f32 0x322BCC77#32))

/-- The cosine similarity of row `r` of `x1` and row `c` of `x2`. -/
def cosine (x1 x2 : Fin 8192 → Fin 256 → EReal) (r c : Fin 8192) : EReal :=
  ∑ d : Fin 256, unitRow x1 r d * unitRow x2 c d

/-- The mask entry as a number: the 32-bit integer read signed. -/
def maskVal (mk : Fin 8192 → Fin 8192 → BitVec 32) (r c : Fin 8192) : EReal :=
  (((mk r c).toInt : ℝ) : EReal)

/-- mask · weight at (r, c). -/
def maskWeight (w : Fin 8192 → Fin 8192 → EReal) (mk : Fin 8192 → Fin 8192 → BitVec 32) (r c : Fin 8192) : EReal :=
  maskVal mk r c * w r c

/-- Column `q` of column tile `j` (tiles of 2048 columns). -/
def col (j : Fin 4) (q : Fin 2048) : Fin 8192 := ⟨2048 * j.val + q.val, by omega⟩

/-- Four tile contributions accumulated in tile order from zero. -/
def chain4 (f : Fin 4 → EReal) : EReal :=
  Ideal.ofBits .f32 0x00000000#32 + f 0 + f 1 + f 2 + f 3

/-- The kernel's scaled similarity: the cosine times the named inverse temperature 1 / f32(0.05). -/
def simK (x1 x2 : Fin 8192 → Fin 256 → EReal) (r c : Fin 8192) : EReal :=
  cosine x1 x2 r c * ((268435456 / 13421773 : ℝ) : EReal)

/-- The kernel's loss of row `r`. -/
def rowK (x1 x2 : Fin 8192 → Fin 256 → EReal) (w : Fin 8192 → Fin 8192 → EReal) (mk : Fin 8192 → Fin 8192 → BitVec 32)
    (r : Fin 8192) : EReal :=
  Ideal.div
    (Ideal.ofBits .f32 0x00000000#32
      - (chain4 (fun j => ∑ q : Fin 2048, maskWeight w mk r (col j q) * simK x1 x2 r (col j q))
          - Ideal.log (chain4 (fun j => ∑ q : Fin 2048, Ideal.exp (simK x1 x2 r (col j q))))
            * chain4 (fun j => ∑ q : Fin 2048, maskWeight w mk r (col j q))))
    (max (chain4 (fun j => ∑ q : Fin 2048, maskVal mk r (col j q))) (Ideal.ofBits .f32 0x3F800000#32))

/-- The kernel's result: zero plus the sum of the rows' losses. -/
def kernelLoss (x1 x2 : Fin 8192 → Fin 256 → EReal) (w : Fin 8192 → Fin 8192 → EReal)
    (mk : Fin 8192 → Fin 8192 → BitVec 32) : EReal :=
  Ideal.ofBits .f32 0x00000000#32 + ∑ r : Fin 8192, rowK x1 x2 w mk r

/-- The reference's scaled similarity: the cosine divided by the temperature f32(0.05). -/
def simR (x1 x2 : Fin 8192 → Fin 256 → EReal) (r c : Fin 8192) : EReal :=
  Ideal.div (cosine x1 x2 r c) (Ideal.ofBits .f32 0x3D4CCCCD#32)

/-- The row maximum the reference's log-softmax subtracts: max(−∞, the fold of max from −∞ over the row). -/
def rowMax (x1 x2 : Fin 8192 → Fin 256 → EReal) (r : Fin 8192) : EReal :=
  max (Ideal.ofBits .f32 0xFF800000#32)
    ((Finset.univ : Finset (Fin 8192)).fold max (Ideal.ofBits .f32 0xFF800000#32) (fun c => simR x1 x2 r c))

/-- The reference's log-softmax at (r, c): (s − M) − log(0 + Σ exp(s − M)). -/
def logp (x1 x2 : Fin 8192 → Fin 256 → EReal) (r c : Fin 8192) : EReal :=
  (simR x1 x2 r c - rowMax x1 x2 r)
    - Ideal.log (Ideal.ofBits .f32 0x00000000#32 + ∑ c' : Fin 8192, Ideal.exp (simR x1 x2 r c' - rowMax x1 x2 r))

/-- The reference's loss of row `r`. -/
def rowR (x1 x2 : Fin 8192 → Fin 256 → EReal) (w : Fin 8192 → Fin 8192 → EReal) (mk : Fin 8192 → Fin 8192 → BitVec 32)
    (r : Fin 8192) : EReal :=
  Ideal.div
    (-(Ideal.ofBits .f32 0x00000000#32 + ∑ c : Fin 8192, maskWeight w mk r c * logp x1 x2 r c))
    (max (Ideal.ofBits .f32 0x00000000#32 + ∑ c : Fin 8192, maskVal mk r c) (Ideal.ofBits .f32 0x3F800000#32))

/-- The reference's result: zero plus the sum of the rows' losses. -/
def refLoss (x1 x2 : Fin 8192 → Fin 256 → EReal) (w : Fin 8192 → Fin 8192 → EReal)
    (mk : Fin 8192 → Fin 8192 → BitVec 32) : EReal :=
  Ideal.ofBits .f32 0x00000000#32 + ∑ r : Fin 8192, rowR x1 x2 w mk r

end Cert.Loss

end
-- ==== Proof.KernelBlocks.lean ====
/-
  What the kernel's region finds and reads.

  Before the region the host normalises every row of the two embedding matrices (each entry divided by
  max(‖row‖, eps)); the region's first two windows stage those matrices. Grid point t = 4·i + j handles rows
  512·i … 512·i + 511 against columns 2048·j … 2048·j + 2047: the first window's block is those rows of the
  first normalised matrix, the second window holds the whole second normalised matrix (the body slices rows
  2048·j … out of it), the weight and mask windows' blocks are those rows and columns of their arrays.
-/
import proofs.«123307_j53386443489488_2_alg».proof.Proof.KernelPieces
import proofs.«123307_j53386443489488_2_alg».proof.Proof.LossSpec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.StableHlo Idealize.ShloMosaic.ValueIdx

variable {F : FTy → Type} [FloatOps F] [Named F]
variable (m : (ℓ : Loc nD τ sig) → Buf (Elt F) ℓ)

/-! ## The host's normalisation -/

/-- A matrix with every row divided by max(its Euclidean norm, eps), then narrowed (the identity on extended reals). -/
def unitRows (x : (⟨S8192x256, .f32⟩ : BufTy).Contents (Elt F)) : (⟨S8192x256, .bf16⟩ : BufTy).Contents (Elt F) :=
  truncf .bf16
    (Host.divf x
      (broadcastInDim S8192x256 ![0, 1] bcast_S8192x1_S8192x256_0_1
        (maximumf
          (Host.sqrt (broadcastInDim S8192x1 ![0] bcast_S8192_S8192x1_0
            (Host.reduceAdd (mulf x x) (constant S_ .f32 0x00000000#32) reducesTo_S8192x256_S8192_d1 h_S_)))
          (broadcastInDim S8192x1 ![] bcast_S_S8192x1 (constant S_ .f32 0x322BCC77#32)))))
    bitsLt_bf16_f32

/-- The region finds the first window's array at the first argument's unit rows. -/
theorem V_main_v10 (c : Dev nD) : V m c main_v10 = unitRows (m ((c : Thread nD τ).loc main_arg0)) := by
  dsimp only [V, V0]
  simp only [hostOps0, hostOps0_1, hostOps0_2, hostOps0_3, List.flatten_cons, List.flatten_nil, List.append_nil, List.cons_append, List.nil_append]
  after_results
  rfl

/-- The region finds the second window's array at the second argument's unit rows. -/
theorem V_main_v11 (c : Dev nD) : V m c main_v11 = unitRows (m ((c : Thread nD τ).loc main_arg1)) := by
  dsimp only [V, V0]
  simp only [hostOps0, hostOps0_1, hostOps0_2, hostOps0_3, List.flatten_cons, List.flatten_nil, List.append_nil, List.cons_append, List.nil_append]
  after_results
  rfl

/-- The reduced row index r with feature k put back is (r, k). -/
theorem lift_feat (h : S8192x256.Reduces [1] S8192) (r : Fin 8192) (k : Fin (S8192x256.size 1)) :
    h.lift (ix1 r) k = ix2 r (⟨k.val, k.isLt⟩ : Fin 256) := by
  funext c; apply Fin.ext
  fin_cases c <;> rfl

/-- The row norms, at row r: √(0 + Σ_d x r d · x r d). -/
theorem norms_apply (x : (⟨S8192x256, .f32⟩ : BufTy).Contents (Elt Ideal)) (r : Fin 8192) (z : Fin 1) :
    Host.sqrt (F := Ideal) (broadcastInDim S8192x1 ![0] bcast_S8192_S8192x1_0
        (Host.reduceAdd (F := Ideal) (mulf x x) (constant (F := Ideal) S_ .f32 0x00000000#32) reducesTo_S8192x256_S8192_d1 h_S_)) (ix2 r z)
      = Cert.Loss.rowNorm (fun r d => x (ix2 r d)) r := by
  show Ideal.sqrt (broadcastInDim S8192x1 ![0] bcast_S8192_S8192x1_0
        (Host.reduceAdd (F := Ideal) (mulf x x) (constant (F := Ideal) S_ .f32 0x00000000#32) reducesTo_S8192x256_S8192_d1 h_S_) (ix2 r z)) = _
  rw [broadcastInDim_apply _ bcast_S8192_S8192x1_0 _ (ix2 r z) (ix1 r) (fun a => match a with
    | ⟨0, _⟩ => by show r.val = if (8192 : Nat) = 1 then 0 else r.val; rw [if_neg (by decide)])]
  simp only [Host.reduceAdd, Ideal.hostReduceAdd_def]
  rw [Ideal.hostReduceAdd_single reducesTo_S8192x256_S8192_d1 (by decide)]
  unfold Cert.Loss.rowNorm
  refine congrArg Ideal.sqrt (congrArg (_ + ·) (Finset.sum_congr rfl fun k _ => ?_))
  rw [lift_feat]
  rfl

/-- The unit rows at (r, d): x r d / max(‖row r‖, eps). -/
theorem unitRows_apply (x : (⟨S8192x256, .f32⟩ : BufTy).Contents (Elt Ideal)) (r : Fin 8192) (d : Fin 256) :
    unitRows (F := Ideal) x (ix2 r d) = Cert.Loss.unitRow (fun r d => x (ix2 r d)) r d := by
  unfold unitRows
  show Ideal.div (x (ix2 r d)) (broadcastInDim S8192x256 ![0, 1] bcast_S8192x1_S8192x256_0_1
        (maximumf
          (Host.sqrt (F := Ideal) (broadcastInDim S8192x1 ![0] bcast_S8192_S8192x1_0
            (Host.reduceAdd (F := Ideal) (mulf x x) (constant (F := Ideal) S_ .f32 0x00000000#32) reducesTo_S8192x256_S8192_d1 h_S_)))
          (broadcastInDim S8192x1 ![] bcast_S_S8192x1 (constant (F := Ideal) S_ .f32 0x322BCC77#32))) (ix2 r d)) = _
  rw [broadcastInDim_apply _ bcast_S8192x1_S8192x256_0_1 _ (ix2 r d) (ix2 r (0 : Fin 1)) (fun a => match a with
    | ⟨0, _⟩ => by show r.val = if (8192 : Nat) = 1 then 0 else r.val; rw [if_neg (by decide)]
    | ⟨1, _⟩ => by show 0 = if (1 : Nat) = 1 then 0 else d.val; rw [if_pos rfl])]
  rw [maximumf_apply, norms_apply]
  rw [broadcastInDim_apply _ bcast_S_S8192x1 _ (ix2 r (0 : Fin 1)) ix0 (fun a => a.elim0)]
  rfl

/-! ## The windows' blocks -/

/-- The printed index maps and the body's slice offset, decided once over the 64 grid points. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 2) = t.val / 4 ∧ win0_4.index t (1 : Fin 2) = 0
    ∧ k0_off1 (grid0.coords t) (0 : Fin 2) = 2048 * (t.val % 4) ∧ k0_off1 (grid0.coords t) (1 : Fin 2) = 0 :=
  (by decide +kernel : ∀ t : Fin grid0.N, _)

/-- The first window's block at point t: rows 512·(t/4) … of the first normalised matrix. -/
theorem iblk0_apply (c : Dev nD) (t : Fin cfg0.N) (p : Fin 512) (d : Fin 256) (r : Fin 8192)
    (hr : r.val = 512 * (t.val / 4) + p.val) :
    (iblk m c 0 t : Vec F S512x256 .bf16) (ix2 p d) = V m c main_v10 (ix2 r d) := by
  obtain ⟨e0, e1, -⟩ := idx_facts t
  have h : ((cfg0.win 0).blk t).view.emb (ix2 p d) = (ix2 r d : S8192x256.Idx) := by
    funext a; apply Fin.ext
    match a with
    | ⟨0, _⟩ => show win0_0.index t (0 : Fin 2) * 512 + 1 * p.val = r.val; omega
    | ⟨1, _⟩ => show win0_0.index t (1 : Fin 2) * 256 + 1 * d.val = d.val; omega
  unfold iblk
  rw [View.read_apply]
  show V m c main_v10 (((cfg0.win 0).blk t).view.emb (ix2 p d)) = _
  rw [h]

/-- The second window's block at every point: the whole second normalised matrix. -/
theorem iblk1_apply (c : Dev nD) (t : Fin cfg0.N) (r : Fin 8192) (d : Fin 256) :
    (iblk m c 1 t : Vec F S8192x256 .bf16) (ix2 r d) = V m c main_v11 (ix2 r d) := by
  obtain ⟨-, -, e0, e1, -⟩ := idx_facts t
  have h : ((cfg0.win 1).blk t).view.emb (ix2 r d) = (ix2 r d : S8192x256.Idx) := by
    funext a; apply Fin.ext
    match a with
    | ⟨0, _⟩ => show win0_1.index t (0 : Fin 2) * 8192 + 1 * r.val = r.val; omega
    | ⟨1, _⟩ => show win0_1.index t (1 : Fin 2) * 256 + 1 * d.val = d.val; omega
  unfold iblk
  rw [View.read_apply]
  show V m c main_v11 (((cfg0.win 1).blk t).view.emb (ix2 r d)) = _
  rw [h]

/-- The weight window's block at point t: rows 512·(t/4) …, columns 2048·(t%4) … of the weights. -/
theorem iblk2_apply (c : Dev nD) (t : Fin cfg0.N) (p : Fin 512) (k : Fin 2048) (r cc : Fin 8192)
    (hr : r.val = 512 * (t.val / 4) + p.val) (hc : cc.val = 2048 * (t.val % 4) + k.val) :
    (iblk m c 2 t : Vec F S512x2048 .f32) (ix2 p k) = m ((c : Thread nD τ).loc main_arg2) (ix2 r cc) := by
  obtain ⟨-, -, -, -, e0, e1, -⟩ := idx_facts t
  have h : ((cfg0.win 2).blk t).view.emb (ix2 p k) = (ix2 r cc : S8192x8192.Idx) := by
    funext a; apply Fin.ext
    match a with
    | ⟨0, _⟩ => show win0_2.index t (0 : Fin 2) * 512 + 1 * p.val = r.val; omega
    | ⟨1, _⟩ => show win0_2.index t (1 : Fin 2) * 2048 + 1 * k.val = cc.val; omega
  unfold iblk
  rw [View.read_apply]
  show V m c main_arg2 (((cfg0.win 2).blk t).view.emb (ix2 p k)) = _
  rw [h, V_main_arg2]

/-- The mask window's block at point t: the same rows and columns of the mask. -/
theorem iblk3_apply (c : Dev nD) (t : Fin cfg0.N) (p : Fin 512) (k : Fin 2048) (r cc : Fin 8192)
    (hr : r.val = 512 * (t.val / 4) + p.val) (hc : cc.val = 2048 * (t.val % 4) + k.val) :
    (iblk m c 3 t : Vec F S512x2048 .i32) (ix2 p k) = m ((c : Thread nD τ).loc main_arg3) (ix2 r cc) := by
  obtain ⟨-, -, -, -, -, -, e0, e1, -⟩ := idx_facts t
  have h : ((cfg0.win 3).blk t).view.emb (ix2 p k) = (ix2 r cc : S8192x8192.Idx) := by
    funext a; apply Fin.ext
    match a with
    | ⟨0, _⟩ => show win0_3.index t (0 : Fin 2) * 512 + 1 * p.val = r.val; omega
    | ⟨1, _⟩ => show win0_3.index t (1 : Fin 2) * 2048 + 1 * k.val = cc.val; omega
  unfold iblk
  rw [View.read_apply]
  show V m c main_arg3 (((cfg0.win 3).blk t).view.emb (ix2 p k)) = _
  rw [h, V_main_arg3]

/-- The body's slice of the resident matrix at point t: rows 2048·(t%4) … of it. -/
theorem slice_apply (t : Fin cfg0.N) (x1 : Vec F S8192x256 .bf16) (k : Fin 2048) (d : Fin 256) (cc : Fin 8192)
    (hc : cc.val = 2048 * (t.val % 4) + k.val) :
    Step.slice (grid0.coords t) x1 (ix2 k d) = x1 (ix2 cc d) := by
  obtain ⟨-, -, -, -, -, -, -, -, -, -, e0, e1⟩ := idx_facts t
  unfold Step.slice
  show x1 ((Rect.unit (s := S8192x256) (k0_off1 (grid0.coords t)) S2048x256.size (k0_off1_inb (grid0.coords t))).idx (ix2 k d)) = _
  refine congrArg x1 (funext fun a => Fin.ext ?_)
  match a with
  | ⟨0, _⟩ => show k0_off1 (grid0.coords t) (0 : Fin 2) + 1 * k.val = cc.val; omega
  | ⟨1, _⟩ => show k0_off1 (grid0.coords t) (1 : Fin 2) + 1 * d.val = d.val; omega

end Cert.KernelIdeal.Blocks

end
-- ==== Proof.KernelRow.lean ====
/-
  The output block of a row tile, row by row, in terms of the argument arrays.

  At grid point t = 4·i + j the loaded blocks are rows 512·i … of the first unit-row matrix, rows 2048·j … of the
  second, and the (rows, columns) rectangle of the weights and the mask; so the tile's similarity at (p, k) is the
  scaled cosine of row r = 512·i + p with column 2048·j + k, and each step adds the tile's sums over those columns.
  Four steps from zero give each running sum as the four tile sums accumulated in order, and the output block at row
  p is the row's loss.
-/
import proofs.«123307_j53386443489488_2_alg».proof.Proof.KernelCarry
import proofs.«123307_j53386443489488_2_alg».proof.Proof.KernelTile
import proofs.«123307_j53386443489488_2_alg».proof.Proof.KernelBlocks

set_option maxRecDepth 16384

noncomputable section

open Idealize.ShloMosaic Idealize.ShloMosaic.TcCoe Idealize.SL.Sem
open Idealize.ShloMosaic.Pipeline (Dat)

namespace Cert.KernelIdeal.Row

open Cert.KernelIdeal Cert.KernelIdeal.Gen Idealize.ShloMosaic.ValueIdx Cert.KernelIdeal.Carry

variable (m : (ℓ : Loc nD τ sig) → Buf (Elt Ideal) ℓ) (c : Dev nD)

/-- The argument arrays, by coordinates. -/
abbrev X1 : Fin 8192 → Fin 256 → EReal := fun r d => m ((c : Thread nD τ).loc main_arg0) (ix2 r d)
abbrev X2 : Fin 8192 → Fin 256 → EReal := fun r d => m ((c : Thread nD τ).loc main_arg1) (ix2 r d)
abbrev W : Fin 8192 → Fin 8192 → EReal := fun r k => m ((c : Thread nD τ).loc main_arg2) (ix2 r k)
abbrev MK : Fin 8192 → Fin 8192 → BitVec 32 := fun r k => m ((c : Thread nD τ).loc main_arg3) (ix2 r k)

/-- The tile's similarity at (p, k) is the kernel's scaled cosine of the global row and column. -/
theorem sim_point (t : Fin cfg0.N) (p : Fin 512) (k : Fin 2048) (r cc : Fin 8192)
    (hr : r.val = 512 * (t.val / 4) + p.val) (hc : cc.val = 2048 * (t.val % 4) + k.val) :
    Tile.sim (iblk m c 0 t) (Step.slice (grid0.coords t) (iblk m c 1 t)) p k = Cert.Loss.simK (X1 m c) (X2 m c) r cc := by
  unfold Tile.sim Cert.Loss.simK Cert.Loss.cosine
  refine congrArg (· * (((268435456 / 13421773 : ℝ)) : EReal)) (Finset.sum_congr rfl fun d _ => ?_)
  rw [Blocks.iblk0_apply m c t p d r hr, Blocks.slice_apply t (iblk m c 1 t) k d cc hc, Blocks.iblk1_apply m c t cc d,
    Blocks.V_main_v10, Blocks.V_main_v11, Blocks.unitRows_apply, Blocks.unitRows_apply]

theorem tileA_point (t : Fin cfg0.N) (p : Fin 512) (r : Fin 8192) (hr : r.val = 512 * (t.val / 4) + p.val)
    (j : Fin 4) (hj : j.val = t.val % 4) (s : Vec Ideal S512x1 .f32) :
    Step.tileA (grid0.coords t) (iblk m c 0 t) (iblk m c 1 t) (iblk m c 2 t) (iblk m c 3 t) s (ix2 p (0 : Fin 1))
      = s (ix2 p (0 : Fin 1)) + ∑ k : Fin 2048, Cert.Loss.maskWeight (W m c) (MK m c) r (Cert.Loss.col j k) * Cert.Loss.simK (X1 m c) (X2 m c) r (Cert.Loss.col j k) := by
  unfold Step.tileA
  refine (Tile.pay12_apply (iblk m c 0 t) (Step.slice (grid0.coords t) (iblk m c 1 t)) (iblk m c 3 t) (iblk m c 2 t) s p).trans ?_
  refine congrArg (s (ix2 p (0 : Fin 1)) + ·) (Finset.sum_congr rfl fun k _ => ?_)
  have hc : (Cert.Loss.col j k).val = 2048 * (t.val % 4) + k.val := by
    show 2048 * j.val + k.val = _
    rw [hj]
  rw [sim_point m c t p k r (Cert.Loss.col j k) hr hc, Blocks.iblk3_apply m c t p k r (Cert.Loss.col j k) hr hc,
    Blocks.iblk2_apply m c t p k r (Cert.Loss.col j k) hr hc]
  rfl

theorem tileS_point (t : Fin cfg0.N) (p : Fin 512) (r : Fin 8192) (hr : r.val = 512 * (t.val / 4) + p.val)
    (j : Fin 4) (hj : j.val = t.val % 4) (s : Vec Ideal S512x1 .f32) :
    Step.tileS (iblk m c 2 t) (iblk m c 3 t) s (ix2 p (0 : Fin 1))
      = s (ix2 p (0 : Fin 1)) + ∑ k : Fin 2048, Cert.Loss.maskWeight (W m c) (MK m c) r (Cert.Loss.col j k) := by
  unfold Step.tileS
  refine (Tile.pay13_apply (iblk m c 3 t) (iblk m c 2 t) s p).trans ?_
  refine congrArg (s (ix2 p (0 : Fin 1)) + ·) (Finset.sum_congr rfl fun k _ => ?_)
  have hc : (Cert.Loss.col j k).val = 2048 * (t.val % 4) + k.val := by
    show 2048 * j.val + k.val = _
    rw [hj]
  rw [Blocks.iblk3_apply m c t p k r (Cert.Loss.col j k) hr hc, Blocks.iblk2_apply m c t p k r (Cert.Loss.col j k) hr hc]
  rfl

theorem tileE_point (t : Fin cfg0.N) (p : Fin 512) (r : Fin 8192) (hr : r.val = 512 * (t.val / 4) + p.val)
    (j : Fin 4) (hj : j.val = t.val % 4) (s : Vec Ideal S512x1 .f32) :
    Step.tileE (grid0.coords t) (iblk m c 0 t) (iblk m c 1 t) s (ix2 p (0 : Fin 1))
      = s (ix2 p (0 : Fin 1)) + ∑ k : Fin 2048, Ideal.exp (Cert.Loss.simK (X1 m c) (X2 m c) r (Cert.Loss.col j k)) := by
  unfold Step.tileE
  refine (Tile.pay1_apply (iblk m c 0 t) (Step.slice (grid0.coords t) (iblk m c 1 t)) s p).trans ?_
  refine congrArg (s (ix2 p (0 : Fin 1)) + ·) (Finset.sum_congr rfl fun k _ => ?_)
  have hc : (Cert.Loss.col j k).val = 2048 * (t.val % 4) + k.val := by
    show 2048 * j.val + k.val = _
    rw [hj]
  rw [sim_point m c t p k r (Cert.Loss.col j k) hr hc]

theorem tileC_point (t : Fin cfg0.N) (p : Fin 512) (r : Fin 8192) (hr : r.val = 512 * (t.val / 4) + p.val)
    (j : Fin 4) (hj : j.val = t.val % 4) (s : Vec Ideal S512x1 .f32) :
    Step.tileC (iblk m c 3 t) s (ix2 p (0 : Fin 1))
      = s (ix2 p (0 : Fin 1)) + ∑ k : Fin 2048, Cert.Loss.maskVal (MK m c) r (Cert.Loss.col j k) := by
  unfold Step.tileC
  refine (Tile.pay2_apply (iblk m c 3 t) s p).trans ?_
  refine congrArg (s (ix2 p (0 : Fin 1)) + ·) (Finset.sum_congr rfl fun k _ => ?_)
  have hc : (Cert.Loss.col j k).val = 2048 * (t.val % 4) + k.val := by
    show 2048 * j.val + k.val = _
    rw [hj]
  rw [Blocks.iblk3_apply m c t p k r (Cert.Loss.col j k) hr hc]
  rfl

/-- After the last column tile of a row tile the output block holds, at row p, the loss of global row r. -/
theorem block_row (t : Fin cfg0.N) (h3 : t.val % 4 = 3) (p : Fin 512) (r : Fin 8192)
    (hr : r.val = 512 * (t.val / 4) + p.val) :
    (outsAt0 m c t.val t.isLt).1 (ix2 p (0 : Fin 1)) = Cert.Loss.rowK (X1 m c) (X2 m c) (W m c) (MK m c) r := by
  obtain ⟨t0, t1, t2, e0, e1, e2, h⟩ := Carry.out_last m c t h3
  have q0 : r.val = 512 * (t0.val / 4) + p.val := by omega
  have q1 : r.val = 512 * (t1.val / 4) + p.val := by omega
  have q2 : r.val = 512 * (t2.val / 4) + p.val := by omega
  have j0 : (0 : Fin 4).val = t0.val % 4 := by show 0 = _; omega
  have j1 : (1 : Fin 4).val = t1.val % 4 := by show 1 = _; omega
  have j2 : (2 : Fin 4).val = t2.val % 4 := by show 2 = _; omega
  have j3 : (3 : Fin 4).val = t.val % 4 := by show 3 = _; omega
  rw [h]
  unfold Carry.lossOf
  rw [Tile.pay3_apply]
  unfold Carry.step Carry.zero4
  dsimp only
  rw [tileA_point m c t p r hr 3 j3, tileA_point m c t2 p r q2 2 j2, tileA_point m c t1 p r q1 1 j1, tileA_point m c t0 p r q0 0 j0, Tile.pay4_apply,
    tileS_point m c t p r hr 3 j3, tileS_point m c t2 p r q2 2 j2, tileS_point m c t1 p r q1 1 j1, tileS_point m c t0 p r q0 0 j0, Tile.pay5_apply,
    tileE_point m c t p r hr 3 j3, tileE_point m c t2 p r q2 2 j2, tileE_point m c t1 p r q1 1 j1, tileE_point m c t0 p r q0 0 j0, Tile.pay6_apply,
    tileC_point m c t p r hr 3 j3, tileC_point m c t2 p r q2 2 j2, tileC_point m c t1 p r q1 1 j1, tileC_point m c t0 p r q0 0 j0, Tile.pay7_apply]
  rfl

end Cert.KernelIdeal.Row

end
-- ==== Proof.KernelTail.lean ====
/-
  The end of the kernel's run.  The host's final sum of the [8192, 1] column of row losses is zero plus the sum
  over the 8192 rows; and the output window's written-back blocks cover that whole column: the block of grid
  point t is rows 512·(t/4) … 512·(t/4) + 511, written back at the points t ≡ 3 (mod 4), so row r is covered by
  the point 4·(r/512) + 3.
-/
import proofs.«123307_j53386443489488_2_alg».proof.Proof.KernelBlocks
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.StableHlo Idealize.ShloMosaic.ValueIdx

/-- The host's total sum of the column of row losses: zero plus the sum over the 8192 rows. -/
theorem total_apply (G : (⟨S8192x1, .f32⟩ : BufTy).Contents (Elt Ideal)) (i : S_.Idx) :
    Host.reduceAdd (F := Ideal) G (constant (F := Ideal) S_ .f32 0x00000000#32) reducesTo_S8192x1_S_d0_1 h_S_ i
      = Ideal.ofBits .f32 0x00000000#32 + ∑ r : Fin 8192, G (ix2 r (0 : Fin 1)) := by
  simp only [Host.reduceAdd, Ideal.hostReduceAdd_def]
  refine (Ideal.hostReduceAdd_total reducesTo_S8192x1_S_d0_1 (fun b => b.elim0) G _ i).trans ?_
  show Ideal.ofBits .f32 0x00000000#32 + ∑ j : S8192x1.Idx, G j = _
  refine congrArg (Ideal.ofBits .f32 0x00000000#32 + ·) ?_
  refine (sum_idx2 (M := EReal) (n0 := 8192) (n1 := 1) G).trans ?_
  exact Finset.sum_congr rfl fun r _ => Fin.sum_univ_one _

/-- A row index of the column is in point `t`'s block iff each coordinate is in the block's range on its axis. -/
theorem mem_blk4 (t : Fin cfg0.N) (i : S8192x1.Idx) :
    i ∈ ((cfg0.win 4).blk t).view.set
      ↔ ∀ a : Fin 2, win0_4.index t a * S512x1.size a ≤ (i a).val
          ∧ (i a).val < win0_4.index t a * S512x1.size a + S512x1.size a := by
  show i ∈ ((View.whole main_v12).slice (win0_4.rect t)).set ↔ _
  rw [View.set_slice_whole, Rect.mem_set_unit]
  exact Iff.rfl

/-- Every row of the column is in the block of a point that writes back: row r in that of 4·(r/512) + 3. -/
theorem cover4_idx (i : S8192x1.Idx) :
    ∃ t : Fin cfg0.N, (cfg0.win 4).flush t = true ∧ i ∈ ((cfg0.win 4).blk t).view.set := by
  have h0 : (i 0).val < 8192 := (i 0).isLt
  have h1 : (i 1).val < 1 := (i 1).isLt
  have hN : cfg0.N = 64 := N_0
  obtain ⟨t, tv⟩ : ∃ t : Fin cfg0.N, t.val = 4 * ((i 0).val / 512) + 3 :=
    ⟨⟨4 * ((i 0).val / 512) + 3, by omega⟩, rfl⟩
  obtain ⟨-, -, -, -, -, -, -, -, e0, e1, -⟩ := Cert.KernelIdeal.Blocks.idx_facts t
  refine ⟨t, (flush0_4 t).mpr (by omega), ?_⟩
  rw [mem_blk4]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1 ≤ (i 1).val ∧ (i 1).val < win0_4.index t (1 : Fin 2) * 1 + 1
    omega

/-- The same, with the index typed as the window's array's index. -/
theorem cover4 (c : Dev nD) (i : ((cfg0.win 4).arr.view.loc ((c : Dev nD).tc : Thread nD τ)).2.ty.Idx) :
    ∃ t : Fin cfg0.N, (cfg0.win 4).flush t = true ∧ i ∈ ((cfg0.win 4).blk t).view.set :=
  cover4_idx i

end Cert.KernelIdeal.Tail

end
-- ==== Proof.KernelFinal.lean ====
/-
  The kernel's run, read: its result is the kernel's closed form of the loss.

  The output window writes a row tile's block back after the tile's last column tile; those sixteen blocks cover
  the [8192, 1] loss column, which therefore ends holding every row's loss; the host's final sum over it is the
  kernel's closed form.
-/
import proofs.«123307_j53386443489488_2_alg».proof.Proof.KernelRow
import proofs.«123307_j53386443489488_2_alg».proof.Proof.KernelTail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Idealize.ShloMosaic.StableHlo Cert.KernelIdeal.Row

variable (m : (ℓ : Loc nD τ sig) → Buf (Elt Ideal) ℓ) (ρ : Dev nD → PrngReg)

/-- The loss column: at row r the kernel's loss of that row. -/
def column (c : Dev nD) : Buf (Elt Ideal) ((c : Thread nD τ).loc main_v12) :=
  fun i => Cert.Loss.rowK (X1 m c) (X2 m c) (W m c) (MK m c) (i 0)

/-- The write-back moves the whole [512, 1] block: what it writes at row j is the staging contents at row j. -/
theorem cut4_apply (t : Fin cfg0.N) (X : Vec Ideal S512x1 .f32) (j : ((cfg0.win 4).xblock (grid0.coords t)).Idx)
    (h0 : (j 0).val < 512) :
    (cfg0.win 4).cut (grid0.coords t) X j = X (ix2 (⟨(j 0).val, h0⟩ : Fin 512) (0 : Fin 1)) := by
  have h1 : (j 1).val < 1 := (j 1).isLt
  refine congrArg X (funext fun a => Fin.ext ?_)
  match a with
  | ⟨0, _⟩ => rfl
  | ⟨1, _⟩ => show (j 1).val = 0; omega

/-- Block t of a column, at row j of the block: the column at row 512·(t/4) + j. -/
theorem read4_apply (c : Dev nD) (t : Fin cfg0.N) (G : Buf (Elt Ideal) ((c : Thread nD τ).loc main_v12))
    (j : ((cfg0.win 4).xblock (grid0.coords t)).Idx) (r : Fin 8192) (hr : r.val = 512 * (t.val / 4) + (j 0).val) :
    ((cfg0.win 4).blk t).view.read (Elt Ideal) G j = G (ix2 r (0 : Fin 1)) := by
  obtain ⟨-, -, -, -, -, -, -, -, e0, e1, -⟩ := Blocks.idx_facts t
  have h1 : (j 1).val < 1 := (j 1).isLt
  rw [View.read_apply]
  refine congrArg G (funext fun a => Fin.ext ?_)
  match a with
  | ⟨0, _⟩ => show win0_4.index t (0 : Fin 2) * 512 + 1 * (j 0).val = r.val; omega
  | ⟨1, _⟩ => show win0_4.index t (1 : Fin 2) * 1 + 1 * (j 1).val = 0; omega

/-- What a row tile's last point writes back is its block of the loss column. -/
theorem flushed_eq (c : Dev nD) (t : Fin cfg0.N) (hf : (cfg0.win 4).flush t = true) :
    (dats m 0 c).flushed 4 t = ((cfg0.win 4).blk t).view.read (Elt Ideal) (column m c) := by
  have h3 : t.val % 4 = 3 := (flush0_4 t).mp hf
  have hN : cfg0.N = 64 := N_0
  have ht := t.isLt
  unfold Pipeline.Dat.flushed
  rw [after0_4]
  funext j
  have h0 : (j 0).val < 512 := (j 0).isLt
  rw [cut4_apply t _ j h0, read4_apply c t (column m c) j ⟨512 * (t.val / 4) + (j 0).val, by omega⟩ rfl,
    Row.block_row m c t h3 ⟨(j 0).val, h0⟩ ⟨512 * (t.val / 4) + (j 0).val, by omega⟩ rfl]
  rfl

/-- So the loss column's array ends holding every row's loss. -/
theorem final_column (c : Dev nD) : (dats m 0 c).arrAt 4 cfg0.N = column m c :=
  (dats m 0 c).arrAt_eq_of_cover 4 (column m c) (flushed_eq m c) (fun i => Tail.cover4 c i)

/-- The host's sum over the column after the region: the kernel's closed form. -/
theorem tail_eq (c : Dev nD) :
    Pipeline.afterTail₀ cfgs (dats m) 0 (V0 m) [hostOps1] c main_v13
      = fun _ => Cert.Loss.kernelLoss (X1 m c) (X2 m c) (W m c) (MK m c) := by
  unfold Pipeline.afterTail₀
  show StableHlo.after hostOps1 _ (Proc.devRef .tc main_v13) = _
  after_results
  rw [(Pipeline.withArrays_arr spec0 launch0.win.arr_inj c _ _ 4).trans (final_column m c)]
  funext i
  rw [Tail.total_apply]
  rfl

/-- The run, read: the result at the kernel's closed form, the four arguments unchanged. -/
theorem run : θ_run defs (onTc (τ := τ) (main (F := Ideal))) ⟨m, fun _ => 0, ρ⟩ fun r => ∀ c : Dev nD,
      r.2.mem ((c.tc : Thread nD τ).loc main_v13) = (fun _ => Cert.Loss.kernelLoss (X1 m c) (X2 m c) (W m c) (MK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c)))⟩)
    (run_main m ρ)

end Cert.KernelIdeal.Final

end
-- ==== Proof.RefRun.lean ====
/-
  The reference's run.

  @main is a straight line of 53 operations. Every weakly fair execution of it terminates with each buffer at the fold
  of the operations' results over the launch contents; what is proved here is that the fold at the result buffer is the
  last stage of the per-operation reading, as a function of the four argument arrays, and that the arguments end
  unchanged. The line is cut into six consecutive pieces and each piece is read from an ARBITRARY valuation: the one
  buffer it hands on as a function of the buffers it reads, and every buffer a later piece reads left as it was. The
  contents after two lines run in order are the second line's fold over the first's, so the pieces chain: the fold of
  the whole line is the fold of its pieces, one after the other.
-/
import proofs.«123307_j53386443489488_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations, cut into six consecutive pieces -/

/-- The first argument's rows normalised: the first call of @norm, the clamp below by eps, the quotient. -/
abbrev ops1 : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x322BCC77#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)) ]

/-- The second argument's rows normalised. -/
abbrev ops2 : List (HloOp τ sig (Elt F)) :=
  [ TRef.binary (TRef.of (T := ⟨S8192x256, .f32⟩) main_arg1) (TRef.of (T := ⟨S8192x256, .f32⟩) main_arg1) (TRef.of (T := ⟨S8192x256, .f32⟩) main_call1_v0) mulf,
    TRef.nullary (TRef.of (T := ⟨S_, .f32⟩) main_call1_cst) (constant S_ .f32 0x00000000#32),
    TRef.binary (TRef.of (T := ⟨S8192x256, .f32⟩) main_call1_v0) (TRef.of (T := ⟨S_, .f32⟩) main_call1_cst) (TRef.of (T := ⟨S8192, .f32⟩) main_call1_v1) (fun x v => Host.reduceAdd x v reducesTo_S8192x256_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v5) Host.sqrt,
    nullary main_cst_0 (constant S_ .f32 0x322BCC77#32),
    unary main_cst_0 main_v6 (broadcastInDim S8192x1 ![] bcast_S_S8192x1 : (⟨S_, .f32⟩ : BufTy).Contents (Elt F) → (⟨S8192x1, .f32⟩ : BufTy).Contents (Elt F)),
    binary main_v5 main_v6 main_v7 (maximumf : (⟨S8192x1, .f32⟩ : BufTy).Contents (Elt F) → (⟨S8192x1, .f32⟩ : BufTy).Contents (Elt F) → (⟨S8192x1, .f32⟩ : BufTy).Contents (Elt F)),
    unary main_v7 main_v8 (broadcastInDim S8192x256 ![0, 1] bcast_S8192x1_S8192x256_0_1 : (⟨S8192x1, .f32⟩ : BufTy).Contents (Elt F) → (⟨S8192x256, .f32⟩ : BufTy).Contents (Elt F)),
    binary main_arg1 main_v8 main_v9 (Host.divf : (⟨S8192x256, .f32⟩ : BufTy).Contents (Elt F) → (⟨S8192x256, .f32⟩ : BufTy).Contents (Elt F) → (⟨S8192x256, .f32⟩ : BufTy).Contents (Elt F)) ]

/-- The contraction of the two normalised arguments and the quotient by the temperature. -/
abbrev ops3 : List (HloOp τ sig (Elt F)) :=
  [ binary main_v4 main_v9 main_v10 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    nullary main_cst_1 (constant S_ .f32 0x3D4CCCCD#32),
    unary main_cst_1 main_v11 (broadcastInDim S8192x8192 ![] bcast_S_S8192x8192 : (⟨S_, .f32⟩ : BufTy).Contents (Elt F) → (⟨S8192x8192, .f32⟩ : BufTy).Contents (Elt F)),
    binary main_v10 main_v11 main_v12 (Host.divf : (⟨S8192x8192, .f32⟩ : BufTy).Contents (Elt F) → (⟨S8192x8192, .f32⟩ : BufTy).Contents (Elt F) → (⟨S8192x8192, .f32⟩ : BufTy).Contents (Elt F)) ]

/-- The call of @log_softmax, first half: the row maxima subtracted. -/
abbrev ops4 : List (HloOp τ sig (Elt F)) :=
  [ TRef.nullary (TRef.of (T := ⟨S_, .f32⟩) main_call2_cst) (constant S_ .f32 0xFF800000#32),
    TRef.binary (TRef.of (T := ⟨S8192x8192, .f32⟩) main_v12) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v12) (TRef.of (T := ⟨S8192x8192, .f32⟩) main_call2_v4) (TRef.of (T := ⟨S8192x8192, .f32⟩) main_call2_v5) subf ]

/-- The call of @log_softmax, second half: the logarithm of the row's sum of exponentials subtracted. -/
abbrev ops4b : List (HloOp τ sig (Elt F)) :=
  [ TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v13) subf ]

/-- The mask's conversion and count, the weighted products, the rows' sums and quotients, the final sum. -/
abbrev ops5 : List (HloOp τ sig (Elt F)) :=
  [ unary main_arg3 main_v14 (sitofp .f32 : (⟨S8192x8192, .i32⟩ : BufTy).Contents (Elt F) → (⟨S8192x8192, .f32⟩ : BufTy).Contents (Elt F)),
    nullary main_cst_2 (constant S_ .f32 0x00000000#32),
    binary main_v14 main_cst_2 main_v15 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0x3F800000#32),
    unary main_cst_3 main_v16 (broadcastInDim S8192 ![] bcast_S_S8192 : (⟨S_, .f32⟩ : BufTy).Contents (Elt F) → (⟨S8192, .f32⟩ : BufTy).Contents (Elt F)),
    binary main_v15 main_v16 main_v17 (maximumf : (⟨S8192, .f32⟩ : BufTy).Contents (Elt F) → (⟨S8192, .f32⟩ : BufTy).Contents (Elt F) → (⟨S8192, .f32⟩ : BufTy).Contents (Elt F)),
    binary main_v14 main_arg2 main_v18 (mulf : (⟨S8192x8192, .f32⟩ : BufTy).Contents (Elt F) → (⟨S8192x8192, .f32⟩ : BufTy).Contents (Elt F) → (⟨S8192x8192, .f32⟩ : BufTy).Contents (Elt F)),
    binary main_v18 main_v13 main_v19 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v19 main_cst_4 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (Host.negf : (⟨S8192, .f32⟩ : BufTy).Contents (Elt F) → (⟨S8192, .f32⟩ : BufTy).Contents (Elt F)),
    binary main_v21 main_v17 main_v22 (Host.divf : (⟨S8192, .f32⟩ : BufTy).Contents (Elt F) → (⟨S8192, .f32⟩ : BufTy).Contents (Elt F) → (⟨S8192, .f32⟩ : BufTy).Contents (Elt F)),
    nullary main_cst_5 (constant S_ .f32 0x00000000#32),
    binary main_v22 main_cst_5 main_v23 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

/-- @main's 53 operations, in order (a called function's operations stand in its call's place). -/
abbrev ops : List (HloOp τ sig (Elt F)) :=
  [ TRef.binary (TRef.of (T := ⟨S8192x256, .f32⟩) main_arg0) (TRef.of (T := ⟨S8192x256, .f32⟩) main_arg0) (TRef.of (T := ⟨S8192x256, .f32⟩) main_call0_v0) mulf,
    TRef.nullary (TRef.of (T := ⟨S_, .f32⟩) main_call0_cst) (constant S_ .f32 0x00000000#32),
    TRef.binary (TRef.of (T := ⟨S8192x256, .f32⟩) main_call0_v0) (TRef.of (T := ⟨S_, .f32⟩) main_call0_cst) (TRef.of (T := ⟨S8192, .f32⟩) main_call0_v1) (fun x v => Host.reduceAdd x v reducesTo_S8192x256_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v0) Host.sqrt,
    nullary main_cst (constant S_ .f32 0x322BCC77#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x256 ![0, 1] bcast_S8192x1_S8192x256_0_1 : (⟨S8192x1, .f32⟩ : BufTy).Contents (Elt F) → (⟨S8192x256, .f32⟩ : BufTy).Contents (Elt F)),
    binary main_arg0 main_v3 main_v4 (Host.divf : (⟨S8192x256, .f32⟩ : BufTy).Contents (Elt F) → (⟨S8192x256, .f32⟩ : BufTy).Contents (Elt F) → (⟨S8192x256, .f32⟩ : BufTy).Contents (Elt F)),
    TRef.binary (TRef.of (T := ⟨S8192x256, .f32⟩) main_arg1) (TRef.of (T := ⟨S8192x256, .f32⟩) main_arg1) (TRef.of (T := ⟨S8192x256, .f32⟩) main_call1_v0) mulf,
    TRef.nullary (TRef.of (T := ⟨S_, .f32⟩) main_call1_cst) (constant S_ .f32 0x00000000#32),
    TRef.binary (TRef.of (T := ⟨S8192x256, .f32⟩) main_call1_v0) (TRef.of (T := ⟨S_, .f32⟩) main_call1_cst) (TRef.of (T := ⟨S8192, .f32⟩) main_call1_v1) (fun x v => Host.reduceAdd x v reducesTo_S8192x256_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v5) Host.sqrt,
    nullary main_cst_0 (constant S_ .f32 0x322BCC77#32),
    unary main_cst_0 main_v6 (broadcastInDim S8192x1 ![] bcast_S_S8192x1 : (⟨S_, .f32⟩ : BufTy).Contents (Elt F) → (⟨S8192x1, .f32⟩ : BufTy).Contents (Elt F)),
    binary main_v5 main_v6 main_v7 (maximumf : (⟨S8192x1, .f32⟩ : BufTy).Contents (Elt F) → (⟨S8192x1, .f32⟩ : BufTy).Contents (Elt F) → (⟨S8192x1, .f32⟩ : BufTy).Contents (Elt F)),
    unary main_v7 main_v8 (broadcastInDim S8192x256 ![0, 1] bcast_S8192x1_S8192x256_0_1 : (⟨S8192x1, .f32⟩ : BufTy).Contents (Elt F) → (⟨S8192x256, .f32⟩ : BufTy).Contents (Elt F)),
    binary main_arg1 main_v8 main_v9 (Host.divf : (⟨S8192x256, .f32⟩ : BufTy).Contents (Elt F) → (⟨S8192x256, .f32⟩ : BufTy).Contents (Elt F) → (⟨S8192x256, .f32⟩ : BufTy).Contents (Elt F)),
    binary main_v4 main_v9 main_v10 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    nullary main_cst_1 (constant S_ .f32 0x3D4CCCCD#32),
    unary main_cst_1 main_v11 (broadcastInDim S8192x8192 ![] bcast_S_S8192x8192 : (⟨S_, .f32⟩ : BufTy).Contents (Elt F) → (⟨S8192x8192, .f32⟩ : BufTy).Contents (Elt F)),
    binary main_v10 main_v11 main_v12 (Host.divf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call2_cst) (constant S_ .f32 0xFF800000#32),
    TRef.binary (TRef.of (T := ⟨S8192x8192, .f32⟩) main_v12) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v12) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v13) subf,
    unary main_arg3 main_v14 (sitofp .f32 : (⟨S8192x8192, .i32⟩ : BufTy).Contents (Elt F) → (⟨S8192x8192, .f32⟩ : BufTy).Contents (Elt F)),
    nullary main_cst_2 (constant S_ .f32 0x00000000#32),
    binary main_v14 main_cst_2 main_v15 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0x3F800000#32),
    unary main_cst_3 main_v16 (broadcastInDim S8192 ![] bcast_S_S8192 : (⟨S_, .f32⟩ : BufTy).Contents (Elt F) → (⟨S8192, .f32⟩ : BufTy).Contents (Elt F)),
    binary main_v15 main_v16 main_v17 (maximumf : (⟨S8192, .f32⟩ : BufTy).Contents (Elt F) → (⟨S8192, .f32⟩ : BufTy).Contents (Elt F) → (⟨S8192, .f32⟩ : BufTy).Contents (Elt F)),
    binary main_v14 main_arg2 main_v18 (mulf : (⟨S8192x8192, .f32⟩ : BufTy).Contents (Elt F) → (⟨S8192x8192, .f32⟩ : BufTy).Contents (Elt F) → (⟨S8192x8192, .f32⟩ : BufTy).Contents (Elt F)),
    binary main_v18 main_v13 main_v19 (mulf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    binary main_v19 main_cst_4 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (Host.negf : (⟨S8192, .f32⟩ : BufTy).Contents (Elt F) → (⟨S8192, .f32⟩ : BufTy).Contents (Elt F)),
    binary main_v21 main_v17 main_v22 (Host.divf : (⟨S8192, .f32⟩ : BufTy).Contents (Elt F) → (⟨S8192, .f32⟩ : BufTy).Contents (Elt F) → (⟨S8192, .f32⟩ : BufTy).Contents (Elt F)),
    nullary main_cst_5 (constant S_ .f32 0x00000000#32),
    binary main_v22 main_cst_5 main_v23 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

theorem ops_split : (ops : List (HloOp τ sig (Elt F))) = ops1 ++ (ops2 ++ (ops3 ++ (ops4 ++ (ops4b ++ ops5)))) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The three stages that the per-operation reading does not name as functions of their operands -/

/-- The scaled similarities of two normalised arrays. -/
def sim (a b : (⟨S8192x256, .f32⟩ : BufTy).Contents (Elt F)) : (⟨S8192x8192, .f32⟩ : BufTy).Contents (Elt F) :=
  Host.divf (Host.dotGeneral dot_S8192x256_S8192x256_S8192x8192_1_1_0_0_n_n none a b)
    (broadcastInDim S8192x8192 ![] bcast_S_S8192x8192 (constant S_ .f32 0x3D4CCCCD#32))

/-- The similarities with each row's maximum subtracted. -/
def shifted (y : (⟨S8192x8192, .f32⟩ : BufTy).Contents (Elt F)) : (⟨S8192x8192, .f32⟩ : BufTy).Contents (Elt F) :=
  subf y (broadcastInDim S8192x8192 ![0, 1] bcast_S8192x1_S8192x8192_0_1 (broadcastInDim S8192x1 ![0] bcast_S8192_S8192x1_0
    (maximumf (broadcastInDim S8192 ![] bcast_S_S8192 (constant S_ .f32 0xFF800000#32))
      (Host.reduce FloatOps.maximumf y (constant S_ .f32 0xFF800000#32) reducesTo_S8192x8192_S8192_d1 h_S_))))

/-- The shifted similarities with the logarithm of each row's sum of exponentials subtracted. -/
def lsm (s : (⟨S8192x8192, .f32⟩ : BufTy).Contents (Elt F)) : (⟨S8192x8192, .f32⟩ : BufTy).Contents (Elt F) :=
  subf s (broadcastInDim S8192x8192 ![0, 1] bcast_S8192x1_S8192x8192_0_1 (Host.log (broadcastInDim S8192x1 ![0] bcast_S8192_S8192x1_0
    (Host.reduceAdd (Host.exp s) (constant S_ .f32 0x00000000#32) reducesTo_S8192x8192_S8192_d1 h_S_))))

/-- The loss from the weights, the mask and the log-probabilities. -/
def tail (w : (⟨S8192x8192, .f32⟩ : BufTy).Contents (Elt F)) (mk : (⟨S8192x8192, .i32⟩ : BufTy).Contents (Elt F))
    (lp : (⟨S8192x8192, .f32⟩ : BufTy).Contents (Elt F)) : (⟨S_, .f32⟩ : BufTy).Contents (Elt F) :=
  Host.reduceAdd (Host.divf (Host.negf (Host.reduceAdd (mulf (mulf (sitofp .f32 mk) w) lp) (constant S_ .f32 0x00000000#32) reducesTo_S8192x8192_S8192_d1 h_S_))
      (maximumf (Host.reduceAdd (sitofp .f32 mk) (constant S_ .f32 0x00000000#32) reducesTo_S8192x8192_S8192_d1 h_S_)
        (broadcastInDim S8192 ![] bcast_S_S8192 (constant S_ .f32 0x3F800000#32))))
    (constant S_ .f32 0x00000000#32) reducesTo_S8192_S_d0 h_S_

theorem sim_eq (x0 x1 : (⟨S8192x256, .f32⟩ : BufTy).Contents (Elt F)) :
    sim (Read.val_main_v4 (F := F) x0) (Read.val_main_v9 (F := F) x1) = Read.val_main_v12 (F := F) x0 x1 := rfl

theorem lsm_eq (x0 x1 : (⟨S8192x256, .f32⟩ : BufTy).Contents (Elt F)) :
    lsm (shifted (Read.val_main_v12 (F := F) x0 x1)) = Read.val_main_v13 (F := F) x0 x1 := rfl

theorem tail_eq (x0 x1 : (⟨S8192x256, .f32⟩ : BufTy).Contents (Elt F)) (x2 : (⟨S8192x8192, .f32⟩ : BufTy).Contents (Elt F))
    (x3 : (⟨S8192x8192, .i32⟩ : BufTy).Contents (Elt F)) :
    tail x2 x3 (Read.val_main_v13 (F := F) x0 x1) = Read.val_main_v23 (F := F) x0 x1 x2 x3 := rfl

/-! ## Each piece from an arbitrary valuation: what it writes, and what it leaves -/

set_option maxRecDepth 8192 in
theorem c1_out (W : Valuation τ sig (Elt F)) :
    after ops1 W (Proc.devRef .tc main_v4) = Read.val_main_v4 (F := F) (W (Proc.devRef .tc main_arg0)) := by
  after_results_simp
  rfl
theorem c1_arg1 (W : Valuation τ sig (Elt F)) : after ops1 W (Proc.devRef .tc main_arg1) = W (Proc.devRef .tc main_arg1) := by
  after_results_simp <;> rfl
theorem c1_arg2 (W : Valuation τ sig (Elt F)) : after ops1 W (Proc.devRef .tc main_arg2) = W (Proc.devRef .tc main_arg2) := by
  after_results_simp <;> rfl
theorem c1_arg3 (W : Valuation τ sig (Elt F)) : after ops1 W (Proc.devRef .tc main_arg3) = W (Proc.devRef .tc main_arg3) := by
  after_results_simp <;> rfl

set_option maxRecDepth 8192 in
theorem c2_out (W : Valuation τ sig (Elt F)) :
    after ops2 W (Proc.devRef .tc main_v9) = Read.val_main_v9 (F := F) (W (Proc.devRef .tc main_arg1)) := by
  after_results_simp
  rfl
theorem c2_v4 (W : Valuation τ sig (Elt F)) : after ops2 W (Proc.devRef .tc main_v4) = W (Proc.devRef .tc main_v4) := by
  after_results_simp <;> rfl
theorem c2_arg2 (W : Valuation τ sig (Elt F)) : after ops2 W (Proc.devRef .tc main_arg2) = W (Proc.devRef .tc main_arg2) := by
  after_results_simp <;> rfl
theorem c2_arg3 (W : Valuation τ sig (Elt F)) : after ops2 W (Proc.devRef .tc main_arg3) = W (Proc.devRef .tc main_arg3) := by
  after_results_simp <;> rfl

set_option maxRecDepth 8192 in
theorem c3_out (W : Valuation τ sig (Elt F)) :
    after ops3 W (Proc.devRef .tc main_v12) = sim (W (Proc.devRef .tc main_v4)) (W (Proc.devRef .tc main_v9)) := by
  after_results_simp
  rfl
theorem c3_arg2 (W : Valuation τ sig (Elt F)) : after ops3 W (Proc.devRef .tc main_arg2) = W (Proc.devRef .tc main_arg2) := by
  after_results_simp <;> rfl
theorem c3_arg3 (W : Valuation τ sig (Elt F)) : after ops3 W (Proc.devRef .tc main_arg3) = W (Proc.devRef .tc main_arg3) := by
  after_results_simp <;> rfl

/-- Contents moved to a buffer's own type and back are unchanged. -/
theorem ofBuf_toBuf {T : BufTy} (x : TRef sig T) (v : T.Contents (Elt F)) : x.ofBuf (x.toBuf v) = v := by
  obtain ⟨r, rfl, _, _⟩ := x
  rfl
theorem toBuf_call2_v5 (h1 h2 h3) (v : (⟨S8192x8192, .f32⟩ : BufTy).Contents (Elt F)) :
    (TRef.of (T := ⟨S8192x8192, .f32⟩) main_call2_v5 h1 h2 h3).toBuf v = v := rfl
theorem ofBuf_v12 (h1 h2 h3) (v : (⟨S8192x8192, .f32⟩ : BufTy).Contents (Elt F)) :
    (TRef.of (T := ⟨S8192x8192, .f32⟩) main_v12 h1 h2 h3).ofBuf v = v := rfl

set_option maxRecDepth 8192 in
theorem c4_out (W : Valuation τ sig (Elt F)) :
    after ops4 W (Proc.devRef .tc main_call2_v5) = shifted (W (Proc.devRef .tc main_v12)) := by
  after_results_simp
  unfold shifted
  simp only [ofBuf_toBuf, toBuf_call2_v5, ofBuf_v12]
theorem c4_arg2 (W : Valuation τ sig (Elt F)) : after ops4 W (Proc.devRef .tc main_arg2) = W (Proc.devRef .tc main_arg2) := by
  after_results_simp <;> rfl
theorem c4_arg3 (W : Valuation τ sig (Elt F)) : after ops4 W (Proc.devRef .tc main_arg3) = W (Proc.devRef .tc main_arg3) := by
  after_results_simp <;> rfl

set_option maxRecDepth 8192 in
theorem c4b_out (W : Valuation τ sig (Elt F)) :
    after ops4b W (Proc.devRef .tc main_v13) = lsm (W (Proc.devRef .tc main_call2_v5)) := by
  after_results_simp
  rfl
theorem c4b_arg2 (W : Valuation τ sig (Elt F)) : after ops4b W (Proc.devRef .tc main_arg2) = W (Proc.devRef .tc main_arg2) := by
  after_results_simp <;> rfl
theorem c4b_arg3 (W : Valuation τ sig (Elt F)) : after ops4b W (Proc.devRef .tc main_arg3) = W (Proc.devRef .tc main_arg3) := by
  after_results_simp <;> rfl

set_option maxRecDepth 8192 in
theorem c5_out (W : Valuation τ sig (Elt F)) :
    after ops5 W (Proc.devRef .tc main_v23) = tail (W (Proc.devRef .tc main_arg2)) (W (Proc.devRef .tc main_arg3)) (W (Proc.devRef .tc main_v13)) := by
  after_results_simp
  rfl

/-! ## The whole line -/

/-- After the 53 operations the result buffer holds the last stage of the four argument arrays. -/
theorem out_eq (V : Valuation τ sig (Elt F)) :
    after ops V (Proc.devRef .tc main_v23)
      = Read.val_main_v23 (F := F) (V (Proc.devRef .tc main_arg0)) (V (Proc.devRef .tc main_arg1)) (V (Proc.devRef .tc main_arg2)) (V (Proc.devRef .tc main_arg3)) := by
  rw [ops_split, after_append, after_append, after_append, after_append, after_append, c5_out, c4b_out, c4b_arg2, c4b_arg3, c4_out, c4_arg2, c4_arg3, c3_out, c3_arg2, c3_arg3,
    c2_out, c2_v4, c2_arg2, c2_arg3, c1_out, c1_arg1, c1_arg2, c1_arg3, sim_eq, lsm_eq, tail_eq]

/-! ## The run -/

theorem arg0_eq (V : Valuation τ sig (Elt F)) : after ops V (Proc.devRef .tc main_arg0) = V (Proc.devRef .tc main_arg0) := by
  after_results_simp <;> rfl
theorem arg1_eq (V : Valuation τ sig (Elt F)) : after ops V (Proc.devRef .tc main_arg1) = V (Proc.devRef .tc main_arg1) := by
  after_results_simp <;> rfl
theorem arg2_eq (V : Valuation τ sig (Elt F)) : after ops V (Proc.devRef .tc main_arg2) = V (Proc.devRef .tc main_arg2) := by
  after_results_simp <;> rfl
theorem arg3_eq (V : Valuation τ sig (Elt F)) : after ops V (Proc.devRef .tc main_arg3) = V (Proc.devRef .tc main_arg3) := by
  after_results_simp <;> rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., nullary_bufs_sub .., unary_bufs_sub .., binary_bufs_sub .., binary_bufs_sub .., binary_bufs_sub .., nullary_bufs_sub .., binary_bufs_sub .., unary_bufs_sub .., binary_bufs_sub .., nullary_bufs_sub .., binary_bufs_sub ..⟩

/-- On every device, for any float values, from any memory with zero counters: every weakly fair execution of @main
    terminates with the result buffer at the last stage of the argument arrays' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = Read.val_main_v23 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's result is its closed form.

  Stage by stage, each value the reference writes is read at explicit coordinates: a row r, a column c, a feature d.
  The two calls of @norm give the rows' Euclidean norms, the quotients by max(norm, eps) the unit rows, the contraction
  over the 256 features the cosines, the quotient by the temperature the scaled similarities. The row maximum is the
  fold of max from −∞ over the row (the reduce with a maximum body, read over its one reduced axis), taken once more
  against −∞; subtracting it, exponentiating, summing over the row and taking the logarithm gives the log-softmax. The
  mask is converted entry by entry; the row's loss is minus the mask-and-weight-weighted sum of log-probabilities over
  the clamped mask count, and the result is zero plus the sum of the rows' losses, the sum over the rank-one index set
  re-indexed by its one coordinate.
-/
import proofs.«123307_j53386443489488_2_alg».proof.Proof.RefRead
import proofs.«123307_j53386443489488_2_alg».proof.Proof.LossSpec

noncomputable section

namespace Cert.ReferenceIdeal.RefValue

open Cert.ReferenceIdeal Cert.ReferenceIdeal.Gen Cert.ReferenceIdeal.Read Idealize.ShloMosaic Idealize.ShloMosaic.ValueIdx Cert.Loss

variable (x0 x1 : (⟨S8192x256, .f32⟩ : BufTy).Contents (Elt Ideal)) (x2 : (⟨S8192x8192, .f32⟩ : BufTy).Contents (Elt Ideal))
  (x3 : (⟨S8192x8192, .i32⟩ : BufTy).Contents (Elt Ideal))

/-! ## Index equations -/

theorem e_norm (r : Fin 8192) (z : Fin 1) (k : Fin 256) :
    idx_main_call0_v1 (idx_main_call0_v2 (ix2 r z)) k = ix2 r k :=
  funext fun a => Fin.ext (by match a with | ⟨0, _⟩ => rfl | ⟨1, _⟩ => rfl)

theorem e_bc (r : Fin 8192) (d : Fin 256) : idx_main_v3 (ix2 r d) = ix2 r (⟨0, Nat.one_pos⟩ : Fin 1) :=
  funext fun a => Fin.ext (by match a with | ⟨0, _⟩ => rfl | ⟨1, _⟩ => rfl)

/-- The first call of @norm at row r: the Euclidean norm of the row. -/
theorem norm0_eq (r : Fin 8192) (z : Fin 1) :
    val_main_v0 (F := Ideal) x0 (ix2 r z) = rowNorm (fun r d => x0 (ix2 r d)) r := by
  rw [val_main_v0_apply, val_main_call0_v2_apply, val_main_call0_v1_apply, val_main_call0_cst_apply]
  simp only [val_main_call0_v0_apply, e_norm, Ideal.hostUnary_sqrt_def, Ideal.mulf_def, Ideal.ofBits_def]
  rfl

theorem unit0_eq (r : Fin 8192) (d : Fin 256) :
    val_main_v4 (F := Ideal) x0 (ix2 r d) = unitRow (fun r d => x0 (ix2 r d)) r d := by
  rw [val_main_v4_apply, val_main_v3_apply, val_main_v2_apply, val_main_v1_apply, val_main_cst_apply, e_bc, norm0_eq]
  simp only [Ideal.hostDivf_def, Ideal.maximumf_def, Ideal.ofBits_def]
  rfl

/-! ## The second argument's rows (the second call of @norm) -/

theorem e_norm1 (r : Fin 8192) (z : Fin 1) (k : Fin 256) :
    idx_main_call1_v1 (idx_main_call1_v2 (ix2 r z)) k = ix2 r k :=
  funext fun a => Fin.ext (by match a with | ⟨0, _⟩ => rfl | ⟨1, _⟩ => rfl)

theorem e_bc1 (r : Fin 8192) (d : Fin 256) : idx_main_v8 (ix2 r d) = ix2 r (⟨0, Nat.one_pos⟩ : Fin 1) :=
  funext fun a => Fin.ext (by match a with | ⟨0, _⟩ => rfl | ⟨1, _⟩ => rfl)

theorem norm1_eq (r : Fin 8192) (z : Fin 1) :
    val_main_v5 (F := Ideal) x1 (ix2 r z) = rowNorm (fun r d => x1 (ix2 r d)) r := by
  rw [val_main_v5_apply, val_main_call1_v2_apply, val_main_call1_v1_apply, val_main_call1_cst_apply]
  simp only [val_main_call1_v0_apply, e_norm1, Ideal.hostUnary_sqrt_def, Ideal.mulf_def, Ideal.ofBits_def]
  rfl

theorem unit1_eq (r : Fin 8192) (d : Fin 256) :
    val_main_v9 (F := Ideal) x1 (ix2 r d) = unitRow (fun r d => x1 (ix2 r d)) r d := by
  rw [val_main_v9_apply, val_main_v8_apply, val_main_v7_apply, val_main_v6_apply, val_main_cst_0_apply, e_bc1, norm1_eq]
  simp only [Ideal.hostDivf_def, Ideal.maximumf_def, Ideal.ofBits_def]
  rfl

/-! ## The similarities -/

theorem e_lhs (r c : Fin 8192) (k : Fin 256) : lidx_main_v10 (ix2 r c) k = ix2 r k :=
  funext fun a => Fin.ext (by match a with | ⟨0, _⟩ => rfl | ⟨1, _⟩ => rfl)

theorem e_rhs (r c : Fin 8192) (k : Fin 256) : ridx_main_v10 (ix2 r c) k = ix2 c k :=
  funext fun a => Fin.ext (by match a with | ⟨0, _⟩ => rfl | ⟨1, _⟩ => rfl)

/-- The contraction at (r, c): the cosine of row r of the first argument and row c of the second. -/
theorem cos_eq (r c : Fin 8192) :
    val_main_v10 (F := Ideal) x0 x1 (ix2 r c) = cosine (fun r d => x0 (ix2 r d)) (fun r d => x1 (ix2 r d)) r c := by
  rw [val_main_v10_apply]
  simp only [e_lhs, e_rhs, unit0_eq, unit1_eq]
  rfl

/-- The scaled similarity at (r, c). -/
theorem sim_eq (r c : Fin 8192) :
    val_main_v12 (F := Ideal) x0 x1 (ix2 r c) = simR (fun r d => x0 (ix2 r d)) (fun r d => x1 (ix2 r d)) r c := by
  rw [val_main_v12_apply, val_main_v11_apply, val_main_cst_1_apply, cos_eq]
  simp only [Ideal.hostDivf_def, Ideal.ofBits_def]
  rfl

/-! ## The row maximum -/

/-- The reduced index r with column k put back is (r, k). -/
theorem lift_row (h : S8192x8192.Reduces [1] S8192) (r : Fin 8192) (k : Fin (S8192x8192.size 1)) :
    h.lift (ix1 r) k = ix2 r (⟨k.val, k.isLt⟩ : Fin 8192) := by
  funext c; apply Fin.ext
  fin_cases c <;> rfl

/-- The reduce with a maximum body over the columns, at row r: the fold of max from −∞ over the row's similarities. -/
theorem max0_eq (r : Fin 8192) :
    val_main_call2_v0 (F := Ideal) x0 x1 (ix1 r)
      = (Finset.univ : Finset (Fin 8192)).fold max (Ideal.ofBits .f32 0xFF800000#32)
          (fun c => simR (fun r d => x0 (ix2 r d)) (fun r d => x1 (ix2 r d)) r c) := by
  unfold val_main_call2_v0
  rw [Host.reduce_eq_fold_single FloatOps.maximumf _ _ reducesTo_S8192x8192_S8192_d1 (by decide) h_S_]
  have hf : (val_main_v12 (F := Ideal) x0 x1 ∘ (Shape.Reduces.lift (by decide : S8192x8192.Reduces [1] S8192) (ix1 r)))
      = fun c : Fin 8192 => simR (fun r d => x0 (ix2 r d)) (fun r d => x1 (ix2 r d)) r c :=
    funext fun k => by rw [Function.comp_apply, lift_row, sim_eq]; rfl
  exact congrArg (fun f => Finset.fold max (Ideal.ofBits .f32 0xFF800000#32) f (Finset.univ : Finset (Fin 8192))) hf

theorem rowMax_eq (r : Fin 8192) :
    val_main_call2_v2 (F := Ideal) x0 x1 (ix1 r) = rowMax (fun r d => x0 (ix2 r d)) (fun r d => x1 (ix2 r d)) r := by
  rw [val_main_call2_v2_apply, val_main_call2_v1_apply, val_main_call2_cst_0_apply, max0_eq]
  simp only [Ideal.maximumf_def, Ideal.ofBits_def]
  rfl

/-! ## The log-softmax -/

theorem e_row (r c : Fin 8192) : idx_main_call2_v3 (idx_main_call2_v4 (ix2 r c)) = ix1 r :=
  funext fun a => Fin.ext (by match a with | ⟨0, _⟩ => rfl)

/-- The similarity with the row maximum subtracted. -/
theorem shift_eq (r c : Fin 8192) :
    val_main_call2_v5 (F := Ideal) x0 x1 (ix2 r c) = simR (fun r d => x0 (ix2 r d)) (fun r d => x1 (ix2 r d)) r c - rowMax (fun r d => x0 (ix2 r d)) (fun r d => x1 (ix2 r d)) r := by
  rw [val_main_call2_v5_apply, val_main_call2_v4_apply, val_main_call2_v3_apply, e_row, sim_eq, rowMax_eq]
  rfl

theorem e_col (r k : Fin 8192) : idx_main_call2_v7 (ix1 r) k = ix2 r k :=
  funext fun a => Fin.ext (by match a with | ⟨0, _⟩ => rfl | ⟨1, _⟩ => rfl)

/-- The row's sum of exponentials. -/
theorem lse_eq (r : Fin 8192) :
    val_main_call2_v7 (F := Ideal) x0 x1 (ix1 r)
      = Ideal.ofBits .f32 0x00000000#32 + ∑ c' : Fin 8192, Ideal.exp (simR (fun r d => x0 (ix2 r d)) (fun r d => x1 (ix2 r d)) r c' - rowMax (fun r d => x0 (ix2 r d)) (fun r d => x1 (ix2 r d)) r) := by
  rw [val_main_call2_v7_apply, val_main_call2_cst_1_apply]
  simp only [val_main_call2_v6_apply, e_col, shift_eq, Ideal.hostUnary_exp_def, Ideal.ofBits_def]

theorem e_row' (r c : Fin 8192) : idx_main_call2_v8 (idx_main_call2_v10 (ix2 r c)) = ix1 r :=
  funext fun a => Fin.ext (by match a with | ⟨0, _⟩ => rfl)

/-- The log-softmax at (r, c). -/
theorem logp_eq (r c : Fin 8192) :
    val_main_v13 (F := Ideal) x0 x1 (ix2 r c) = logp (fun r d => x0 (ix2 r d)) (fun r d => x1 (ix2 r d)) r c := by
  rw [val_main_v13_apply, val_main_call2_v10_apply, val_main_call2_v9_apply, val_main_call2_v8_apply, e_row', shift_eq, lse_eq]
  simp only [Ideal.subf_def, Ideal.hostUnary_log_def]
  rfl

/-! ## The mask, the weights and the rows' losses -/

/-- The converted mask entry. -/
theorem mask_eq (r c : Fin 8192) : val_main_v14 (F := Ideal) x3 (ix2 r c) = maskVal (fun r c => x3 (ix2 r c)) r c := rfl

theorem e_col15 (r k : Fin 8192) : idx_main_v15 (ix1 r) k = ix2 r k :=
  funext fun a => Fin.ext (by match a with | ⟨0, _⟩ => rfl | ⟨1, _⟩ => rfl)

/-- The row's mask count, clamped below by one. -/
theorem cnt_eq (r : Fin 8192) :
    val_main_v17 (F := Ideal) x3 (ix1 r)
      = max (Ideal.ofBits .f32 0x00000000#32 + ∑ c : Fin 8192, maskVal (fun r c => x3 (ix2 r c)) r c) (Ideal.ofBits .f32 0x3F800000#32) := by
  rw [val_main_v17_apply, val_main_v15_apply, val_main_cst_2_apply, val_main_v16_apply, val_main_cst_3_apply]
  simp only [e_col15, mask_eq, Ideal.maximumf_def, Ideal.ofBits_def]

theorem e_col20 (r k : Fin 8192) : idx_main_v20 (ix1 r) k = ix2 r k :=
  funext fun a => Fin.ext (by match a with | ⟨0, _⟩ => rfl | ⟨1, _⟩ => rfl)

/-- The row's weighted sum of log-probabilities. -/
theorem num_eq (r : Fin 8192) :
    val_main_v20 (F := Ideal) x0 x1 x2 x3 (ix1 r)
      = Ideal.ofBits .f32 0x00000000#32 + ∑ c : Fin 8192, maskWeight (fun r c => x2 (ix2 r c)) (fun r c => x3 (ix2 r c)) r c * logp (fun r d => x0 (ix2 r d)) (fun r d => x1 (ix2 r d)) r c := by
  rw [val_main_v20_apply, val_main_cst_4_apply]
  simp only [val_main_v19_apply, val_main_v18_apply, e_col20, mask_eq, logp_eq, Ideal.mulf_def, Ideal.ofBits_def]
  rfl

/-- The loss of row r. -/
theorem rowR_eq (r : Fin 8192) :
    val_main_v22 (F := Ideal) x0 x1 x2 x3 (ix1 r) = rowR (fun r d => x0 (ix2 r d)) (fun r d => x1 (ix2 r d)) (fun r c => x2 (ix2 r c)) (fun r c => x3 (ix2 r c)) r := by
  rw [val_main_v22_apply, val_main_v21_apply, num_eq, cnt_eq]
  simp only [Ideal.hostDivf_def, Ideal.hostNegf_def, Ideal.negf_def]
  rfl

/-! ## The result -/

/-- A rank-one index set is its coordinate's range. -/
def rowEquiv : S8192.Idx ≃ Fin 8192 where
  toFun i := i 0
  invFun := ix1
  left_inv i := (eq_ix1 i).symm
  right_inv _ := rfl

/-- The reference's last stage at the scalar index is the reference's closed form of the four argument arrays. -/
theorem result_eq (i : S_.Idx) :
    val_main_v23 (F := Ideal) x0 x1 x2 x3 i = refLoss (fun r d => x0 (ix2 r d)) (fun r d => x1 (ix2 r d)) (fun r c => x2 (ix2 r c)) (fun r c => x3 (ix2 r c)) := by
  rw [val_main_v23_apply, val_main_cst_5_apply, ← Equiv.sum_comp rowEquiv.symm]
  unfold refLoss
  refine congrArg (_ + ·) (Finset.sum_congr rfl fun r _ => ?_)
  exact rowR_eq x0 x1 x2 x3 r

end Cert.ReferenceIdeal.RefValue

end
-- ==== Proof.FiniteInputs.lean ====
/-
  From the precondition to the reality of every float input entry.

  The precondition is the conjunction of three tests, one per float argument: every entry's absolute value is below +∞.
  Over the extended reals the absolute value of x is max x (−x) and the pattern 0x7F800000 denotes ⊤, so the test at an
  entry says max x (−x) < ⊤, which fails at ⊤ and at ⊥: the entry is a real number.
-/
import proofs.«123307_j53386443489488_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The scalar shape has one index. -/
instance : Subsingleton Cert.Pre_finite_inputs.S_.Idx := ⟨fun a b => funext fun d => d.elim0⟩

/-- The pattern of +∞ denotes ⊤. -/
theorem ofBits_inf : Ideal.ofBits .f32 0x7F800000#32 = ⊤ := by simp [Ideal.ofBits, Ideal.ieee]

/-- An extended real whose absolute value max x (−x) is below ⊤ is a real. -/
theorem real_of_abs_lt_top (x : EReal) (h : max x (-x) < ⊤) : ∃ r : ℝ, x = (r : EReal) := by
  induction x using EReal.rec with
  | bot => simp at h
  | top => simp at h
  | coe r => exact ⟨r, rfl⟩

/-- One entry's test read back: the comparison |x| < +∞ came out 1, so x is a real. -/
theorem real_of_test (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  apply real_of_abs_lt_top
  rw [Ideal.hostAbsf_def, Ideal.absf_def, Ideal.cmpf_def, Ideal.ofBits_def, ofBits_inf] at h
  by_contra hn
  have h0 : Ideal.cmp .olt (max x (-x)) ⊤ = 0#1 := by
    show BitVec.ofBool (decide (max x (-x) < ⊤)) = 0#1
    rw [decide_eq_false hn]; rfl
  rw [h0] at h
  exact absurd h (by decide)

variable [Cert.Pre_finite_inputs.Facts]

/-- The precondition decoded: every entry of the three float arguments is a real. -/
theorem real_of_pre (a0 a1 : FVec Ideal Cert.Pre_finite_inputs.S8192x256 .f32) (a2 : FVec Ideal Cert.Pre_finite_inputs.S8192x8192 .f32)
    (a3 : IVec Cert.Pre_finite_inputs.S8192x8192 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_test (a0 i) (Host.reduce_andi_all _ _ _ _ _ e0 i)
  · exact real_of_test (a1 i) (Host.reduce_andi_all _ _ _ _ _ e1 i)
  · exact real_of_test (a2 i) (Host.reduce_andi_all _ _ _ _ _ e2 i)

end Cert.FiniteInputs

end
-- ==== Proof.LossAlgebraConsts.lean ====
/-
  The float literals the two closed forms of the loss spell, as the extended reals their bit patterns denote.
  Only three facts are used downstream: the norm floor eps is a positive real, the temperature is exactly the
  rational 13421773 / 268435456, and the pattern of minus infinity denotes ⊥.  (Zero is
  `Ideal.ofBits_zero_f32` of the library.)
-/
import Idealize.ShloMosaic.PureOps.Ideal
import Idealize.ShloMosaic.PureOps.Ideal.Laws

noncomputable section

namespace Cert.Loss

open Idealize.ShloMosaic

/-- The norm floor eps denotes a positive real. -/
theorem eps_pos_real : ∃ e : ℝ, 0 < e ∧ Ideal.ofBits .f32 0x322BCC77#32 = (e : EReal) := by
  refine ⟨_, ?_, by simp [Ideal.ofBits, Ideal.ieee, -EReal.coe_mul]; rfl⟩
  positivity

/-- The temperature f32(0.05) denotes exactly 13421773 / 2^28. -/
theorem temperature_eq : Ideal.ofBits .f32 0x3D4CCCCD#32 = ((13421773 / 268435456 : ℝ) : EReal) := by
  simp [Ideal.ofBits, Ideal.ieee, -EReal.coe_mul]; norm_num

/-- The pattern of minus infinity denotes ⊥. -/
theorem neg_inf_eq : Ideal.ofBits .f32 0xFF800000#32 = (⊥ : EReal) := by
  simp [Ideal.ofBits, Ideal.ieee]

/-- The pattern of 1.0 denotes 1. -/
theorem one_eq : Ideal.ofBits .f32 0x3F800000#32 = ((1 : ℝ) : EReal) := by
  simp [Ideal.ofBits, Ideal.ieee, -EReal.coe_mul]; norm_num

end Cert.Loss

end
-- ==== Proof.LossAlgebraTiles.lean ====
/-
  The column tiling: the columns 2048·j + q, for j over the four tiles and q over the 2048 columns of a tile,
  enumerate the 8192 columns exactly once, so four tile sums accumulated in tile order from zero are zero plus
  the sum over all the columns.  The extended reals are an additive commutative monoid, so this needs no
  finiteness of the summands.
-/
import proofs.«123307_j53386443489488_2_alg».proof.Proof.LossSpec

noncomputable section

namespace Cert.Loss

open Idealize.ShloMosaic

/-- The column of tile `j` at offset `q` is the value at `(j, q)` of the standard equivalence
    Fin 4 × Fin 2048 ≃ Fin (4 · 2048). -/
theorem col_eq_equiv (j : Fin 4) (q : Fin 2048) : col j q = finProdFinEquiv (j, q) := by
  apply Fin.ext
  simp only [col, finProdFinEquiv_apply_val]
  omega

/-- The sum over all the columns, cut into the four tile sums. -/
theorem sum_tiles (f : Fin 8192 → EReal) :
    ∑ c : Fin 8192, f c = ∑ j : Fin 4, ∑ q : Fin 2048, f (col j q) := by
  have h : ∑ c : Fin (4 * 2048), f c = ∑ p : Fin 4 × Fin 2048, f (finProdFinEquiv p) :=
    (Equiv.sum_comp (finProdFinEquiv : Fin 4 × Fin 2048 ≃ Fin (4 * 2048)) (fun c : Fin (4 * 2048) => f c)).symm
  rw [Fintype.sum_prod_type] at h
  show ∑ c : Fin (4 * 2048), f c = _
  refine h.trans ?_
  refine Finset.sum_congr rfl fun j _ => Finset.sum_congr rfl fun q _ => ?_
  rw [col_eq_equiv]

/-- Four tile sums accumulated in tile order from zero: zero plus the sum over all the columns. -/
theorem chain4_tiles (f : Fin 8192 → EReal) :
    chain4 (fun j => ∑ q : Fin 2048, f (col j q))
      = Ideal.ofBits .f32 0x00000000#32 + ∑ c : Fin 8192, f c := by
  rw [sum_tiles, Fin.sum_univ_four, chain4]
  simp only [add_assoc]

end Cert.Loss

end
-- ==== Proof.LossAlgebraReal.lean ====
/-
  The real-number core of the loss identity, over an abstract nonempty finite column type.

  With column weights μ, scaled similarities s and ANY shift M, the shifted log-softmax form
      −Σ_c μ c · ((s c − M) − log Σ_c' exp(s c' − M))
  equals the running-sums form
      0 − (Σ_c μ c · s c − log(Σ_c exp(s c)) · Σ_c μ c),
  because Σ exp(s − M) = exp(−M) · Σ exp s with Σ exp s > 0, so its logarithm is log(Σ exp s) − M and the shift
  cancels in every summand.  Also: the coercion of the reals into the extended reals commutes with finite sums.
-/
import Mathlib

noncomputable section

namespace Cert.Loss

/-- The coercion of the reals into the extended reals commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of exponentials over a nonempty finite type is positive. -/
theorem sum_exp_pos {ι : Type*} [Fintype ι] [Nonempty ι] (s : ι → ℝ) : 0 < ∑ c, Real.exp (s c) :=
  Finset.sum_pos (fun c _ => Real.exp_pos (s c)) Finset.univ_nonempty

/-- The logarithm of the shifted sum of exponentials is the unshifted one minus the shift. -/
theorem log_sum_exp_shift {ι : Type*} [Fintype ι] [Nonempty ι] (s : ι → ℝ) (M : ℝ) :
    Real.log (∑ c, Real.exp (s c - M)) = Real.log (∑ c, Real.exp (s c)) - M := by
  have h1 : ∑ c, Real.exp (s c - M) = Real.exp (-M) * ∑ c, Real.exp (s c) := by
    rw [Finset.mul_sum]
    refine Finset.sum_congr rfl fun c _ => ?_
    rw [← Real.exp_add]
    congr 1
    ring
  rw [h1, Real.log_mul (Real.exp_pos _).ne' (sum_exp_pos s).ne', Real.log_exp]
  ring

/-- The row identity: the shifted log-softmax form equals the running-sums form, whatever the shift. -/
theorem real_row_identity {ι : Type*} [Fintype ι] [Nonempty ι] (μ s : ι → ℝ) (M : ℝ) :
    0 - ((∑ c, μ c * s c) - Real.log (∑ c, Real.exp (s c)) * ∑ c, μ c)
      = -(∑ c, μ c * ((s c - M) - Real.log (∑ c', Real.exp (s c' - M)))) := by
  rw [log_sum_exp_shift]
  have h : ∀ c, μ c * ((s c - M) - (Real.log (∑ c', Real.exp (s c')) - M))
      = μ c * s c - Real.log (∑ c', Real.exp (s c')) * μ c := fun c => by ring
  rw [Finset.sum_congr rfl fun c _ => h c, Finset.sum_sub_distrib, ← Finset.mul_sum]
  ring

end Cert.Loss

end
-- ==== Proof.LossAlgebraRow.lean ====
/-
  The row identity transported to the extended reals, over an abstract nonempty finite column type: when the
  column weights, the scaled similarities and the shift are all reals, the two numerators (running sums against
  shifted log-softmax) are the same extended real; and the maximum folded from ⊥ over real values is a real.
-/
import Idealize.ShloMosaic.PureOps.Ideal
import proofs.«123307_j53386443489488_2_alg».proof.Proof.LossAlgebraReal

noncomputable section

namespace Cert.Loss

open Idealize.ShloMosaic

/-- The coercion of the reals into the extended reals commutes with max. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The logarithm of zero plus a sum of exponentials of reals is the real logarithm of the real sum. -/
theorem log_sum_exp_coe {ι : Type*} [Fintype ι] [Nonempty ι] (s : ι → ℝ) :
    Ideal.log (0 + ∑ c, Ideal.exp (s c : EReal)) = ((Real.log (∑ c, Real.exp (s c)) : ℝ) : EReal) := by
  simp only [zero_add, Ideal.exp_coe, ← coe_finset_sum]
  rw [Ideal.log_coe, if_neg (not_le.mpr (sum_exp_pos s))]

/-- The two numerators agree: running sums on the left, shifted log-softmax on the right. -/
theorem numerators_eq {ι : Type*} [Fintype ι] [Nonempty ι] (μ s : ι → ℝ) (M : ℝ) :
    (0 : EReal) - ((0 + ∑ c, (μ c : EReal) * (s c : EReal))
        - Ideal.log (0 + ∑ c, Ideal.exp (s c : EReal)) * (0 + ∑ c, (μ c : EReal)))
      = -(0 + ∑ c, (μ c : EReal) * (((s c : EReal) - (M : EReal))
            - Ideal.log (0 + ∑ c', Ideal.exp ((s c' : EReal) - (M : EReal))))) := by
  have hl' : Ideal.log (0 + ∑ c', Ideal.exp ((s c' : EReal) - (M : EReal)))
      = ((Real.log (∑ c, Real.exp (s c - M)) : ℝ) : EReal) := by
    simp only [← EReal.coe_sub]
    exact log_sum_exp_coe fun c => s c - M
  rw [log_sum_exp_coe, hl']
  simp only [zero_add, ← EReal.coe_sub, ← EReal.coe_mul, ← coe_finset_sum]
  rw [zero_sub, ← EReal.coe_neg, ← EReal.coe_neg, EReal.coe_eq_coe_iff]
  have h := real_row_identity μ s M
  rw [zero_sub] at h
  exact h

/-- The maximum folded from ⊥ over real values on a nonempty finite type is a real. -/
theorem fold_max_real {ι : Type*} [Fintype ι] [Nonempty ι] (f : ι → ℝ) :
    ∃ M : ℝ, max (⊥ : EReal) ((Finset.univ : Finset ι).fold max (⊥ : EReal) (fun c => (f c : EReal)))
      = (M : EReal) := by
  have hb : (⊥ : EReal) < (Finset.univ : Finset ι).fold max (⊥ : EReal) (fun c => (f c : EReal)) := by
    rw [Finset.lt_fold_max]
    obtain ⟨c⟩ := ‹Nonempty ι›
    exact Or.inr ⟨c, Finset.mem_univ c, EReal.bot_lt_coe _⟩
  have ht : (Finset.univ : Finset ι).fold max (⊥ : EReal) (fun c => (f c : EReal)) < ⊤ := by
    rw [Finset.fold_max_lt]
    exact ⟨bot_lt_top, fun c _ => EReal.coe_lt_top _⟩
  exact ⟨_, by rw [max_eq_right bot_le, EReal.coe_toReal ht.ne hb.ne']⟩

end Cert.Loss

end
-- ==== Proof.LossAlgebra.lean ====
/-
  The two closed forms of the weighted contrastive loss agree when every float input is finite.

  With real inputs every intermediate value is a real: a row norm is the real square root of a sum of squares,
  its maximum with the positive floor eps is a positive real, so a unit-row entry is the entry times a real
  reciprocal and a cosine is a real.  The named inverse temperature is exactly the reciprocal of the temperature,
  so both programs scale the cosine to THE SAME real similarity.  The row maximum the shifted log-softmax
  subtracts is a real, and which real does not matter.  The four tile sums of each running sum are zero plus the
  sum over all the columns, so the two denominators are the same term and the two numerators are the two sides
  of the row identity.
-/
import proofs.«123307_j53386443489488_2_alg».proof.Proof.LossSpec
import proofs.«123307_j53386443489488_2_alg».proof.Proof.LossAlgebraConsts
import proofs.«123307_j53386443489488_2_alg».proof.Proof.LossAlgebraTiles
import proofs.«123307_j53386443489488_2_alg».proof.Proof.LossAlgebraRow

noncomputable section

namespace Cert.Loss

open Idealize.ShloMosaic

/-- Entry (r, d) of the row-normalised real matrix, with norm floor `e`. -/
def unitReal (e : ℝ) (X : Fin 8192 → Fin 256 → ℝ) (r : Fin 8192) (d : Fin 256) : ℝ :=
  X r d * (1 / max (Real.sqrt (∑ d', X r d' * X r d')) e)

/-- The scaled similarity of row `r` of `X1` and row `c` of `X2`, as a real. -/
def simReal (e : ℝ) (X1 X2 : Fin 8192 → Fin 256 → ℝ) (r c : Fin 8192) : ℝ :=
  (∑ d, unitReal e X1 r d * unitReal e X2 c d) * (268435456 / 13421773)

/-- mask · weight at (r, c), as a real. -/
def muReal (W : Fin 8192 → Fin 8192 → ℝ) (mk : Fin 8192 → Fin 8192 → BitVec 32) (r c : Fin 8192) : ℝ :=
  ((mk r c).toInt : ℝ) * W r c

section
variable (e : ℝ) (he : 0 < e) (heq : Ideal.ofBits .f32 0x322BCC77#32 = (e : EReal))
include he heq

/-- The norm of a real row is the real square root of its sum of squares. -/
theorem rowNorm_coe (X : Fin 8192 → Fin 256 → ℝ) (r : Fin 8192) :
    rowNorm (fun r d => (X r d : EReal)) r = ((Real.sqrt (∑ d, X r d * X r d) : ℝ) : EReal) := by
  simp only [rowNorm, Ideal.ofBits_zero_f32, zero_add, ← EReal.coe_mul, ← coe_finset_sum]
  rw [Ideal.sqrt_coe, if_neg (not_lt.mpr (Finset.sum_nonneg fun d _ => mul_self_nonneg _))]

/-- A unit-row entry of a real matrix is a real. -/
theorem unitRow_coe (X : Fin 8192 → Fin 256 → ℝ) (r : Fin 8192) (d : Fin 256) :
    unitRow (fun r d => (X r d : EReal)) r d = (unitReal e X r d : EReal) := by
  have hpos : max (Real.sqrt (∑ d', X r d' * X r d')) e ≠ 0 := ne_of_gt (lt_max_of_lt_right he)
  simp only [unitRow]
  rw [rowNorm_coe e he heq, heq, ← coe_max, Ideal.div_coe hpos, ← EReal.coe_mul]
  rfl

/-- The kernel's scaled similarity of real matrices is the real `simReal`. -/
theorem simK_coe (X1 X2 : Fin 8192 → Fin 256 → ℝ) (r c : Fin 8192) :
    simK (fun r d => (X1 r d : EReal)) (fun r d => (X2 r d : EReal)) r c = (simReal e X1 X2 r c : EReal) := by
  simp only [simK, cosine, unitRow_coe e he heq, ← EReal.coe_mul, ← coe_finset_sum]
  rfl

/-- The reference's scaled similarity of real matrices is the same real. -/
theorem simR_coe (X1 X2 : Fin 8192 → Fin 256 → ℝ) (r c : Fin 8192) :
    simR (fun r d => (X1 r d : EReal)) (fun r d => (X2 r d : EReal)) r c = (simReal e X1 X2 r c : EReal) := by
  have ht : (13421773 / 268435456 : ℝ) ≠ 0 := by norm_num
  simp only [simR, cosine, unitRow_coe e he heq, ← EReal.coe_mul, ← coe_finset_sum]
  rw [temperature_eq, Ideal.div_coe ht, ← EReal.coe_mul, simReal]
  norm_num

/-- The row maximum of real similarities is a real. -/
theorem rowMax_real (X1 X2 : Fin 8192 → Fin 256 → ℝ) (r : Fin 8192) :
    ∃ M : ℝ, rowMax (fun r d => (X1 r d : EReal)) (fun r d => (X2 r d : EReal)) r = (M : EReal) := by
  simp only [rowMax, neg_inf_eq, simR_coe e he heq]
  exact fold_max_real fun c => simReal e X1 X2 r c

/-- mask · weight with real weights is the real `muReal`. -/
theorem maskWeight_coe (W : Fin 8192 → Fin 8192 → ℝ) (mk : Fin 8192 → Fin 8192 → BitVec 32) (r c : Fin 8192) :
    maskWeight (fun r c => (W r c : EReal)) mk r c = (muReal W mk r c : EReal) := by
  simp only [maskWeight, maskVal, ← EReal.coe_mul]
  rfl

/-- The two programs' losses of a row agree on real inputs. -/
theorem rowK_eq_rowR (X1 X2 : Fin 8192 → Fin 256 → ℝ) (W : Fin 8192 → Fin 8192 → ℝ)
    (mk : Fin 8192 → Fin 8192 → BitVec 32) (r : Fin 8192) :
    rowK (fun r d => (X1 r d : EReal)) (fun r d => (X2 r d : EReal)) (fun r c => (W r c : EReal)) mk r
      = rowR (fun r d => (X1 r d : EReal)) (fun r d => (X2 r d : EReal)) (fun r c => (W r c : EReal)) mk r := by
  obtain ⟨M, hM⟩ := rowMax_real e he heq X1 X2 r
  unfold rowK rowR
  rw [chain4_tiles (fun c => maskWeight (fun r c => (W r c : EReal)) mk r c
          * simK (fun r d => (X1 r d : EReal)) (fun r d => (X2 r d : EReal)) r c),
    chain4_tiles (fun c => Ideal.exp (simK (fun r d => (X1 r d : EReal)) (fun r d => (X2 r d : EReal)) r c)),
    chain4_tiles (fun c => maskWeight (fun r c => (W r c : EReal)) mk r c),
    chain4_tiles (fun c => maskVal mk r c)]
  congr 1
  simp only [logp, hM, simK_coe e he heq, simR_coe e he heq, maskWeight_coe, Ideal.ofBits_zero_f32]
  exact numerators_eq (fun c => muReal W mk r c) (fun c => simReal e X1 X2 r c) M

end

/-- The kernel's closed form equals the reference's whenever every float input is finite. -/
theorem kernelLoss_eq_refLoss
    (x1 x2 : Fin 8192 → Fin 256 → EReal) (w : Fin 8192 → Fin 8192 → EReal) (mk : Fin 8192 → Fin 8192 → BitVec 32)
    (h1 : ∀ r d, ∃ a : ℝ, x1 r d = (a : EReal)) (h2 : ∀ r d, ∃ a : ℝ, x2 r d = (a : EReal))
    (hw : ∀ r c, ∃ a : ℝ, w r c = (a : EReal)) :
    kernelLoss x1 x2 w mk = refLoss x1 x2 w mk := by
  choose X1 hX1 using h1
  choose X2 hX2 using h2
  choose W hW using hw
  obtain rfl : x1 = fun r d => (X1 r d : EReal) := funext fun r => funext fun d => hX1 r d
  obtain rfl : x2 = fun r d => (X2 r d : EReal) := funext fun r => funext fun d => hX2 r d
  obtain rfl : w = fun r c => (W r c : EReal) := funext fun r => funext fun c => hW r c
  obtain ⟨e, he, heq⟩ := eps_pos_real
  unfold kernelLoss refLoss
  exact congrArg (fun t => Ideal.ofBits .f32 0x00000000#32 + t)
    (Finset.sum_congr rfl fun r _ => rowK_eq_rowR e he heq X1 X2 W mk r)

end Cert.Loss

end
-- ==== Proof.lean ====
/-
  The certificate: a tiled, streaming weighted contrastive loss against its jnp reference, over the extended reals.

  Both programs normalise the rows of two [8192, 256] embedding matrices to unit length, scale their cosine
  similarities by the inverse of the temperature 0.05 and average, over the masked columns of each row, the weighted
  log-softmax of the row; the result is the sum of the rows' losses.

  The kernel never forms the [8192, 8192] similarity matrix: for each tile of 512 rows it streams four tiles of 2048
  columns, keeping per row the four running sums A = Σ m·w·s, S = Σ m·w, E = Σ exp s and C = Σ m, and after the last
  column tile writes (0 − (A − log E · S)) / max(C, 1); it multiplies by the folded reciprocal 20.0 of the
  temperature, which the certificate's table names the exact reciprocal of the temperature's f32 value (the reference
  divides by that value). The reference subtracts the row maximum M before exponentiating and computes
  −(Σ m·w·((s − M) − log Σ exp(s − M))) / max(Σ m, 1).

  The two agree on finite inputs: with every entry real, s is real, Σ exp(s − M) = exp(−M)·E with E > 0, so
  (s − M) − log Σ exp(s − M) = s − log E, and Σ m·w·(s − log E) = A − log E · S by distributivity over the reals; a
  sum over 8192 columns is the four tile sums accumulated in order. Finiteness is used: on the extended reals the
  shift by M and the distribution over the sum both fail at infinities.

  The modules: LossSpec (the two closed forms), LossAlgebra (their equality on real inputs), KernelPieces / KernelCarry
  / KernelTile / KernelBlocks / KernelRow / KernelTail / KernelFinal (the kernel's run ends at its closed form),
  RefRead / RefRun / RefValue (the reference's run ends at its closed form), FiniteInputs (the precondition read).
-/
import proofs.«123307_j53386443489488_2_alg».proof.Defs
import proofs.«123307_j53386443489488_2_alg».proof.Proof.Gen.Kernel
import proofs.«123307_j53386443489488_2_alg».proof.Proof.Gen.Kernel.Frame
import proofs.«123307_j53386443489488_2_alg».proof.Proof.Gen.KernelIdeal
import proofs.«123307_j53386443489488_2_alg».proof.Proof.Gen.KernelIdeal.Frame
import proofs.«123307_j53386443489488_2_alg».proof.Proof.Gen.ReferenceIdeal
import proofs.«123307_j53386443489488_2_alg».proof.Proof.Gen.Pre_finite_inputs
import proofs.«123307_j53386443489488_2_alg».proof.Proof.KernelFinal
import proofs.«123307_j53386443489488_2_alg».proof.Proof.RefRun
import proofs.«123307_j53386443489488_2_alg».proof.Proof.RefValue
import proofs.«123307_j53386443489488_2_alg».proof.Proof.FiniteInputs
import proofs.«123307_j53386443489488_2_alg».proof.Proof.LossAlgebra
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The one rewrite of the ideal pass: the kernel's literal 20.0 is named the exact reciprocal of the temperature's
    f32 value, and the printed constant is that value at the ideal instance. -/
theorem preserves : Cert.preserves_Kernel_KernelIdeal :=
  IdealRules.named_const.statement Cert.KernelIdeal.κ "inv_temperature" .f32 0x41A00000#32
    ((268435456 / 13421773 : ℝ) : EReal) rfl

/-- The kernel's run ends at its closed form of the arguments, the reference's at its own closed form of arguments
    that agree; on finite inputs the two closed forms are one extended real. -/
theorem algebraic : Cert.algebraic_KernelIdeal_ReferenceIdeal := by
  intro m ρ m' ρ' hpre hagree
  refine ⟨fun c => fun _ => Cert.Loss.kernelLoss (Cert.KernelIdeal.Row.X1 m c) (Cert.KernelIdeal.Row.X2 m c)
      (Cert.KernelIdeal.Row.W m c) (Cert.KernelIdeal.Row.MK m c), Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  obtain ⟨f0, f1, f2⟩ := Cert.FiniteInputs.real_of_pre _ _ _ _ (hpre c)
  funext i
  rw [Cert.ReferenceIdeal.RefValue.result_eq, (hagree c).1, (hagree c).2.1, (hagree c).2.2.1, (hagree c).2.2.2]
  exact (Cert.Loss.kernelLoss_eq_refLoss _ _ _ _ (fun r d => f0 (ix2 r d)) (fun r d => f1 (ix2 r d))
    (fun r k => f2 (ix2 r k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
